-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg16 : FVec F S40 .f32) (main_v63 : IVec S_ 1) (main_v67 : IVec S_ 1) : IVec S_ 1 :=
  let main_v68 : IVec S_ 1 := andi main_v63 main_v67
  let main_v69 : FVec F S40 .f32 := Host.absf main_arg16
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x40 .f32) (main_arg16 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x40 .f32 := Host.absf main_arg15
  let main_cst_24 : FVec F S_ .f32 := constant S_ .f32 0x7F800000#32
  let main_v65 : FVec F S64x40 .f32 := broadcastInDim S64x40 ![] bcast_S_S64x40 main_cst_24
  let main_v66 : IVec S64x40 1 := cmpf .olt main_v64 main_v65
  let main_c_25 : IVec S_ 1 := constantI S_ 1 1#1
  let main_v67 : IVec S_ 1 := (fun x v => Host.reduce IntOp.andi x v reducesTo_S64x40_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x40 .f32) (main_arg16 : FVec F S40 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S256 .f32) (main_arg7 : FVec F S256x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x40 .f32) (main_arg16 : FVec F S40 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x512 .f32) (main_arg1 : IVec S1600000 32) (main_arg2 : IVec S1600000 32) (main_arg3 : FVec F S512x512 .f32) (main_arg4 : FVec F S512 .f32) (main_arg5 : FVec F S512x256 .f32) (main_arg6 : FVec F S256 .f32) (main_arg7 : FVec F S256x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x40 .f32) (main_arg16 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x512 : Shape := ⟨2, ![100000, 512]⟩
abbrev S1600000 : Shape := ⟨1, ![1600000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x512 : Shape := ⟨2, ![1, 512]⟩
abbrev S1x256 : Shape := ⟨2, ![1, 256]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S2000x256 : Shape := ⟨2, ![2000, 256]⟩
abbrev S1600000x64 : Shape := ⟨2, ![1600000, 64]⟩
abbrev S2000x1 : Shape := ⟨2, ![2000, 1]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 114
  | .vmem => 42
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x40, .f32⟩
  | .hbm, ⟨16, _⟩ => ⟨S40, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S1x512, .f32⟩
  | .hbm, ⟨39, _⟩ => ⟨S1x256, .f32⟩
  | .hbm, ⟨40, _⟩ => ⟨S1x64, .f32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x64, .f32⟩
  | .hbm, ⟨108, _⟩ => ⟨S_, .f32⟩
  | .hbm, ⟨109, _⟩ => ⟨S100000x64, .f32⟩
  | .hbm, ⟨110, _⟩ => ⟨S1600000x1, .i32⟩
  | .hbm, ⟨111, _⟩ => ⟨S100000x64, .f32⟩
  | .hbm, ⟨112, _⟩ => ⟨S1x40, .f32⟩
  | .hbm, ⟨113, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x1, .f32⟩
  | .local _ .vmem, ⟨21, _⟩ => ⟨S2000x1, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S64x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x1, .f32⟩
  | .local _ .vmem, ⟨37, _⟩ => ⟨S2000x1, .f32⟩
  | .local _ .vmem, ⟨38, _⟩ => ⟨S64x40, .f32⟩
  | .local _ .vmem, ⟨39, _⟩ => ⟨S1x40, .f32⟩
  | .local _ .vmem, ⟨40, _⟩ => ⟨S2000x40, .f32⟩
  | .local _ .vmem, ⟨41, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_c_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_v64 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S512_S1x512 : S512.ShapeCasts S1x512
  shapeCasts_S256_S1x256 : S256.ShapeCasts S1x256
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  dot_S2000x256_S256x64_S2000x64_1_0_0_1_n_n_wf : DotDims.WF S2000x256 S256x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x40.size a ≤ S64x40.size a
  hwx4_2 : ∀ i : grid4.Coords, EltTy.bits .f32 = 32 ∨ (Rect.block (s := S64x40) S64x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x40.size a ≤ S100000x40.size a
  hwx4_4 : ∀ i : grid4.Coords, EltTy.bits .f32 = 32 ∨ (Rect.block (s := S100000x40) S2000x40.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S2000x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1x512 : Shape := ⟨2, ![1, 512]⟩
abbrev S100000x256 : Shape := ⟨2, ![100000, 256]⟩
abbrev S1x256 : Shape := ⟨2, ![1, 256]⟩
abbrev S100000x64 : Shape := ⟨2, ![100000, 64]⟩
abbrev S1x64 : Shape := ⟨2, ![1, 64]⟩
abbrev S100000x1 : Shape := ⟨2, ![100000, 1]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 162
  | .vmem => 0
  | .smem => 0
  | _ => 0

abbrev hbmTy0_0 (i : Nat) : BufTy := match i % 128 with
  | 0 => ⟨S100000x512, .f32⟩
  | 1 => ⟨S1600000, .i32⟩
  | 2 => ⟨S1600000, .i32⟩
  | 3 => ⟨S512x512, .f32⟩
  | 4 => ⟨S512, .f32⟩
  | 5 => ⟨S512x256, .f32⟩
  | 6 => ⟨S256, .f32⟩
  | 7 => ⟨S256x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x40, .f32⟩
  | 16 => ⟨S40, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000, .f32⟩
  | 37 => ⟨S100000x512, .f32⟩
  | 38 => ⟨S1x512, .f32⟩
  | 39 => ⟨S100000x512, .f32⟩
  | 40 => ⟨S100000x512, .f32⟩
  | 41 => ⟨S_, .f32⟩
  | 42 => ⟨S100000x512, .f32⟩
  | 43 => ⟨S100000x512, .f32⟩
  | 44 => ⟨S100000x256, .f32⟩
  | 45 => ⟨S1x256, .f32⟩
  | 46 => ⟨S100000x256, .f32⟩
  | 47 => ⟨S100000x256, .f32⟩
  | 48 => ⟨S_, .f32⟩
  | 49 => ⟨S100000x256, .f32⟩
  | 50 => ⟨S100000x256, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x1, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x1, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x1, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S100000x1, .f32⟩
  | 101 => ⟨S100000x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x1, .f32⟩
  | 111 => ⟨S100000x64, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000x1, .f32⟩
  | 127 => ⟨S100000x64, .f32⟩
  | _ => ⟨S100000x512, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x1, .f32⟩
  | 9 => ⟨S100000x64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S100000x1, .f32⟩
  | 25 => ⟨S100000x64, .f32⟩
  | 26 => ⟨S100000x64, .f32⟩
  | 27 => ⟨S100000x40, .f32⟩
  | 28 => ⟨S1x40, .f32⟩
  | 29 => ⟨S100000x40, .f32⟩
  | 30 => ⟨S100000x40, .f32⟩
  | 31 => ⟨S_, .f32⟩
  | 32 => ⟨S100000x40, .f32⟩
  | 33 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call2_cst : Ref sig .tc := ⟨.hbm, 41, rfl⟩
abbrev main_call2_v0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call3_cst : Ref sig .tc := ⟨.hbm, 48, rfl⟩
abbrev main_call3_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call4_cst : Ref sig .tc := ⟨.hbm, 55, rfl⟩
abbrev main_call4_v0 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c : Ref sig .tc := ⟨.hbm, 61, rfl⟩
abbrev main_v29 : Ref sig .tc := ⟨.hbm, 62, rfl⟩
abbrev main_v30 : Ref sig .tc := ⟨.hbm, 63, rfl⟩
abbrev main_c_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call5_cst : Ref sig .tc := ⟨.hbm, 81, rfl⟩
abbrev main_call5_v0 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_6 : Ref sig .tc := ⟨.hbm, 87, rfl⟩
abbrev main_v50 : Ref sig .tc := ⟨.hbm, 88, rfl⟩
abbrev main_v51 : Ref sig .tc := ⟨.hbm, 89, rfl⟩
abbrev main_c_7 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_8 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call6_cst : Ref sig .tc := ⟨.hbm, 107, rfl⟩
abbrev main_call6_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_9 : Ref sig .tc := ⟨.hbm, 113, rfl⟩
abbrev main_v71 : Ref sig .tc := ⟨.hbm, 114, rfl⟩
abbrev main_v72 : Ref sig .tc := ⟨.hbm, 115, rfl⟩
abbrev main_c_10 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_11 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call7_cst : Ref sig .tc := ⟨.hbm, 133, rfl⟩
abbrev main_call7_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_12 : Ref sig .tc := ⟨.hbm, 139, rfl⟩
abbrev main_v92 : Ref sig .tc := ⟨.hbm, 140, rfl⟩
abbrev main_v93 : Ref sig .tc := ⟨.hbm, 141, rfl⟩
abbrev main_c_13 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_14 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call8_cst : Ref sig .tc := ⟨.hbm, 159, rfl⟩
abbrev main_call8_v0 : Ref sig .tc := ⟨.hbm, 160, rfl⟩
abbrev main_v109 : Ref sig .tc := ⟨.hbm, 161, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  scatter_S100000_S1600000x1_S1600000_n_0_0_1_wf : ScatterDims.WF S100000 S1600000x1 S1600000 [] [0] [0] 1
  dot_S100000x512_S512x512_S100000x512_1_0_0_1_n_n_wf : DotDims.WF S100000x512 S512x512 S100000x512 [1] [0] [0] [1] [] []
  dot_S100000x512_S512x256_S100000x256_1_0_0_1_n_n_wf : DotDims.WF S100000x512 S512x256 S100000x256 [1] [0] [0] [1] [] []
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KRun.lean ====
/-
  The idealized kernel's whole run, with its result named.

  The program is five launches among stretches of host operations; the contents of every buffer at each
  boundary form a fold from the launch memory, and the last boundary's contents are what every weakly fair
  execution ends in.  This module states that run once more with the result buffer's final contents read off
  the fold beside the unchanged arguments; every later module works on the fold alone.
-/
import proofs.«131599_j32418413150598_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array ends as launched. -/
theorem run_out : θ_run defs (onTc (τ := τ) (main (F := F))) ⟨m, fun _ => 0, ρ⟩ (fun r => ∀ c : Dev nD,
      r.2.mem ((c.tc : Thread nD τ).loc main_v75) = W14 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v75 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.GcnRun

end
-- ==== Proof.HostFns.lean ====
/-
  The host side of the program, as functions.

  Between the launches the program computes, with plain array operations: every node's degree as a count of
  edges (ones scatter-added into zeros at the edges' endpoints), the normalisation 1/√max(degree, 1), and, before
  each graph-convolution launch, the aggregation of the scaled node features along the edges (a gather of rows
  at the sources, a scatter-add of them at the destinations).  Each is named here once, over the printed shapes.
-/
import proofs.«131599_j32418413150598_1_alg».proof.Proof.Gen.KernelIdeal
import Idealize.ShloMosaic.PureOps.Ideal

noncomputable section

namespace Cert.KernelIdeal.GcnHost

open Cert.KernelIdeal Cert.KernelIdeal.Gen
open Idealize.ShloMosaic

/-- A float array of the given shape, of extended reals. -/
abbrev F32 (s : Shape) : Type := (⟨s, .f32⟩ : BufTy).Contents (Elt Ideal)
/-- A 32-bit integer array of the given shape. -/
abbrev I32 (s : Shape) : Type := (⟨s, .i32⟩ : BufTy).Contents (Elt Ideal)

/-- max(bound broadcast, degrees): what `jnp.clip(deg, 1.0)` computes. -/
def clipAt (one : F32 S_) (deg : F32 S100000) : F32 S100000 :=
  maximumf (F := Ideal) (φ := .f32) (broadcastInDim S100000 ![] bcast_S_S100000 (id one)) deg

/-- A node's degree: the number of edges whose endpoint (in the given endpoint list) it is — ones scatter-added into zeros. -/
def degOf (x : I32 S1600000) : F32 S100000 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x)
    (broadcastInDim S1600000 ![] bcast_S_S1600000 (constant (F := Ideal) S_ .f32 0x3F800000#32))

/-- The normalisation 1/√max(deg, 1) of every node. -/
def normOf (x : I32 S1600000) : F32 S100000 :=
  Host.rsqrt (F := Ideal) (φ := .f32) (clipAt (constant (F := Ideal) S_ .f32 0x3F800000#32) (degOf x))

/-- One aggregation: scale row r of the features by the source normalisation, gather the rows at the edges'
    sources (a negative index wrapped once), scatter-add them at the edges' destinations into zeros. -/
def aggOf (h : F32 S100000x64) (ns : F32 S100000) (x1 x2 : I32 S1600000) : F32 S100000x64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2)
    (Host.gather gather_S100000x64_S1600000x1_S1600000x64_1_0_n_n_0_1_164
      (mulf h (broadcastInDim S100000x64 ![0, 1] bcast_S100000x1_S100000x64_0_1 (broadcastInDim S100000x1 ![0] bcast_S100000_S100000x1_0 ns)))
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

end Cert.KernelIdeal.GcnHost

end
-- ==== Proof.Walk.lean ====
/-
  What each buffer holds at each boundary of the program.

  The contents of the program's buffers between its stretches of host operations and its five launches form a
  fold from the launch memory.  This module reads that fold at the buffers the launches and the aggregations
  take: the two normalisation vectors (computed once, before the first launch, and carried unchanged to every
  later boundary), the edge lists and the weights (arguments, never written), the reshaped biases, and each
  aggregated feature array as the aggregation of the previous launch's output.  Every fact is one step: a host
  stretch is crossed by rewriting each operation's result or non-result; a launch is crossed at a buffer it
  does not write because its pipeline leaves its input arrays and every other buffer as they were.
-/
import proofs.«131599_j32418413150598_1_alg».proof.Proof.Gen.KernelIdeal.Frame
import proofs.«131599_j32418413150598_1_alg».proof.Proof.HostFns
import Idealize.ShloMosaic.Lib.StableHlo.Run
import Idealize.ShloMosaic.Lib.Pipeline.Value

set_option maxRecDepth 16384

noncomputable section

namespace Cert.KernelIdeal.GcnWalk

open Cert.KernelIdeal Cert.KernelIdeal.Gen Cert.KernelIdeal.GcnHost
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch contents of a buffer. -/
abbrev argv (b : Ref sig .tc) : Buf (Elt Ideal) ((c : Thread nD τ).loc b) := m ((c : Thread nD τ).loc b)

/-! ## The two clips, over any contents -/

theorem clip_out (X : Valuation τ sig (Elt Ideal)) :
    StableHlo.after hostOps0_1 X (Proc.devRef .tc main_v7) = clipAt (X (Proc.devRef .tc main_cst_2)) (X (Proc.devRef .tc main_v3)) := by
  after_results
  rfl

theorem clip_in (X : Valuation τ sig (Elt Ideal)) :
    StableHlo.after hostOps0_3 X (Proc.devRef .tc main_v9) = clipAt (X (Proc.devRef .tc main_cst_3)) (X (Proc.devRef .tc main_v6)) := by
  after_results
  rfl

/-! ## Up to the first launch -/

theorem v3_at1 : W1 m ρ c (Proc.devRef .tc main_v3) = degOf (argv m c main_arg1) := by
  after_results
  all_goals rfl
theorem v6_at1 : W1 m ρ c (Proc.devRef .tc main_v6) = degOf (argv m c main_arg2) := by
  after_results
  all_goals rfl
theorem cst2_at1 : W1 m ρ c (Proc.devRef .tc main_cst_2) = constant (F := Ideal) S_ .f32 0x3F800000#32 := by
  after_results
  all_goals rfl

theorem v7_at2 : W2 m ρ c (Proc.devRef .tc main_v7) = clipAt (constant (F := Ideal) S_ .f32 0x3F800000#32) (degOf (argv m c main_arg1)) :=
  (clip_out (W1 m ρ c)).trans (congrArg₂ clipAt (cst2_at1 m ρ c) (v3_at1 m ρ c))
theorem v6_at2 : W2 m ρ c (Proc.devRef .tc main_v6) = degOf (argv m c main_arg2) := by
  have h := v6_at1 m ρ c
  show StableHlo.after hostOps0_1 (W1 m ρ c) (Proc.devRef .tc main_v6) = _
  generalize W1 m ρ c = X at h ⊢
  after_results
  exact h

theorem v8_at3 : W3 m ρ c (Proc.devRef .tc main_v8) = normOf (argv m c main_arg1) := by
  have h := v7_at2 m ρ c
  show StableHlo.after hostOps0_2 (W2 m ρ c) (Proc.devRef .tc main_v8) = _
  generalize W2 m ρ c = X at h ⊢
  after_results
  rw [h]; rfl
theorem cst3_at3 : W3 m ρ c (Proc.devRef .tc main_cst_3) = constant (F := Ideal) S_ .f32 0x3F800000#32 := by
  show StableHlo.after hostOps0_2 (W2 m ρ c) (Proc.devRef .tc main_cst_3) = _
  generalize W2 m ρ c = X
  after_results
  all_goals rfl
theorem v6_at3 : W3 m ρ c (Proc.devRef .tc main_v6) = degOf (argv m c main_arg2) := by
  have h := v6_at2 m ρ c
  show StableHlo.after hostOps0_2 (W2 m ρ c) (Proc.devRef .tc main_v6) = _
  generalize W2 m ρ c = X at h ⊢
  after_results
  exact h

theorem v9_at4 : W4 m ρ c (Proc.devRef .tc main_v9) = clipAt (constant (F := Ideal) S_ .f32 0x3F800000#32) (degOf (argv m c main_arg2)) :=
  (clip_in (W3 m ρ c)).trans (congrArg₂ clipAt (cst3_at3 m ρ c) (v6_at3 m ρ c))
theorem v8_at4 : W4 m ρ c (Proc.devRef .tc main_v8) = normOf (argv m c main_arg1) := by
  have h := v8_at3 m ρ c
  show StableHlo.after hostOps0_3 (W3 m ρ c) (Proc.devRef .tc main_v8) = _
  generalize W3 m ρ c = X at h ⊢
  after_results
  exact h

theorem v8_at5 : W5 m ρ c (Proc.devRef .tc main_v8) = normOf (argv m c main_arg1) := by
  have h := v8_at4 m ρ c
  show StableHlo.after hostOps0_4 (W4 m ρ c) (Proc.devRef .tc main_v8) = _
  generalize W4 m ρ c = X at h ⊢
  after_results
  exact h
theorem v11_at5 : W5 m ρ c (Proc.devRef .tc main_v11) = shapeCast S100000x1 (normOf (argv m c main_arg2)) shapeCasts_S100000_S100000x1 := by
  have h := v9_at4 m ρ c
  show StableHlo.after hostOps0_4 (W4 m ρ c) (Proc.devRef .tc main_v11) = _
  generalize W4 m ρ c = X at h ⊢
  after_results
  rw [h]; rfl
theorem v12_at5 : W5 m ρ c (Proc.devRef .tc main_v12) = shapeCast S1x512 (argv m c main_arg4) shapeCasts_S512_S1x512 := by
  after_results
  all_goals rfl
theorem arg0_at5 : W5 m ρ c (Proc.devRef .tc main_arg0) = argv m c main_arg0 := by
  after_results
  all_goals rfl
theorem v13_at5 : W5 m ρ c (Proc.devRef .tc main_v13) = shapeCast S1x256 (argv m c main_arg6) shapeCasts_S256_S1x256 := by
  after_results
  all_goals rfl
theorem v14_at5 : W5 m ρ c (Proc.devRef .tc main_v14) = shapeCast S1x64 (argv m c main_arg8) shapeCasts_S64_S1x64 := by
  after_results
  all_goals rfl
theorem arg3_at5 : W5 m ρ c (Proc.devRef .tc main_arg3) = argv m c main_arg3 := by
  after_results
  all_goals rfl
theorem arg5_at5 : W5 m ρ c (Proc.devRef .tc main_arg5) = argv m c main_arg5 := by
  after_results
  all_goals rfl
theorem arg7_at5 : W5 m ρ c (Proc.devRef .tc main_arg7) = argv m c main_arg7 := by
  after_results
  all_goals rfl
theorem arg1_at5 : W5 m ρ c (Proc.devRef .tc main_arg1) = argv m c main_arg1 := by
  after_results
  all_goals rfl
theorem arg2_at5 : W5 m ρ c (Proc.devRef .tc main_arg2) = argv m c main_arg2 := by
  after_results
  all_goals rfl

/-! ## Across the first launch, and the first aggregation -/

theorem v8_at6 : W6 m ρ c (Proc.devRef .tc main_v8) = normOf (argv m c main_arg1) :=
  (W6_of_ne m ρ c main_v8 (by decide)).trans (v8_at5 m ρ c)
theorem v11_at6 : W6 m ρ c (Proc.devRef .tc main_v11) = shapeCast S100000x1 (normOf (argv m c main_arg2)) shapeCasts_S100000_S100000x1 :=
  (W6_of_ne m ρ c main_v11 (by decide)).trans (v11_at5 m ρ c)
theorem arg1_at6 : W6 m ρ c (Proc.devRef .tc main_arg1) = argv m c main_arg1 :=
  (W6_of_ne m ρ c main_arg1 (by decide)).trans (arg1_at5 m ρ c)
theorem arg2_at6 : W6 m ρ c (Proc.devRef .tc main_arg2) = argv m c main_arg2 :=
  (W6_of_ne m ρ c main_arg2 (by decide)).trans (arg2_at5 m ρ c)

set_option maxHeartbeats 1000000 in
theorem v28_at7 : W7 m ρ c (Proc.devRef .tc main_v28)
    = aggOf (W6 m ρ c (Proc.devRef .tc main_v15)) (normOf (argv m c main_arg1)) (argv m c main_arg1) (argv m c main_arg2) := by
  have h8 := v8_at6 m ρ c
  have h1 := arg1_at6 m ρ c
  have h2 := arg2_at6 m ρ c
  show StableHlo.after hostOps1 (W6 m ρ c) (Proc.devRef .tc main_v28) = _
  generalize W6 m ρ c = X at h8 h1 h2 ⊢
  after_results_simp
  rw [h8, h1, h2]
  rfl
theorem v8_at7 : W7 m ρ c (Proc.devRef .tc main_v8) = normOf (argv m c main_arg1) := by
  have h := v8_at6 m ρ c
  show StableHlo.after hostOps1 (W6 m ρ c) (Proc.devRef .tc main_v8) = _
  generalize W6 m ρ c = X at h ⊢
  after_results
  exact h
theorem v11_at7 : W7 m ρ c (Proc.devRef .tc main_v11) = shapeCast S100000x1 (normOf (argv m c main_arg2)) shapeCasts_S100000_S100000x1 := by
  have h := v11_at6 m ρ c
  show StableHlo.after hostOps1 (W6 m ρ c) (Proc.devRef .tc main_v11) = _
  generalize W6 m ρ c = X at h ⊢
  after_results
  exact h
theorem arg1_at7 : W7 m ρ c (Proc.devRef .tc main_arg1) = argv m c main_arg1 := by
  have h := arg1_at6 m ρ c
  show StableHlo.after hostOps1 (W6 m ρ c) (Proc.devRef .tc main_arg1) = _
  generalize W6 m ρ c = X at h ⊢
  after_results
  exact h
theorem arg2_at7 : W7 m ρ c (Proc.devRef .tc main_arg2) = argv m c main_arg2 := by
  have h := arg2_at6 m ρ c
  show StableHlo.after hostOps1 (W6 m ρ c) (Proc.devRef .tc main_arg2) = _
  generalize W6 m ρ c = X at h ⊢
  after_results
  exact h
theorem arg9_at7 : W7 m ρ c (Proc.devRef .tc main_arg9) = argv m c main_arg9 := by
  have h : W6 m ρ c (Proc.devRef .tc main_arg9) = argv m c main_arg9 :=
    (W6_of_ne m ρ c main_arg9 (by decide)).trans (by after_results; all_goals rfl)
  show StableHlo.after hostOps1 (W6 m ρ c) (Proc.devRef .tc main_arg9) = _
  generalize W6 m ρ c = X at h ⊢
  after_results
  exact h
theorem v29_at7 : W7 m ρ c (Proc.devRef .tc main_v29) = shapeCast S1x64 (argv m c main_arg10) shapeCasts_S64_S1x64 := by
  have h : W6 m ρ c (Proc.devRef .tc main_arg10) = argv m c main_arg10 :=
    (W6_of_ne m ρ c main_arg10 (by decide)).trans (by after_results; all_goals rfl)
  show StableHlo.after hostOps1 (W6 m ρ c) (Proc.devRef .tc main_v29) = _
  generalize W6 m ρ c = X at h ⊢
  after_results
  rw [h]; rfl

/-! ## Across the second launch, and the second aggregation -/

theorem v8_at8 : W8 m ρ c (Proc.devRef .tc main_v8) = normOf (argv m c main_arg1) :=
  (W8_of_ne m ρ c main_v8 (by decide)).trans (v8_at7 m ρ c)
theorem arg1_at8 : W8 m ρ c (Proc.devRef .tc main_arg1) = argv m c main_arg1 :=
  (W8_of_ne m ρ c main_arg1 (by decide)).trans (arg1_at7 m ρ c)
theorem arg2_at8 : W8 m ρ c (Proc.devRef .tc main_arg2) = argv m c main_arg2 :=
  (W8_of_ne m ρ c main_arg2 (by decide)).trans (arg2_at7 m ρ c)
/-- The destination normalisation is an INPUT array of the launch: its pipeline leaves it as entered. -/
theorem v11_at8 : W8 m ρ c (Proc.devRef .tc main_v11) = shapeCast S100000x1 (normOf (argv m c main_arg2)) shapeCasts_S100000_S100000x1 :=
  (W8_arr m ρ c 1).trans ((((dat1 (V7 m ρ) c).arrAt_in 1 rfl _).trans (A_eq1 (V7 m ρ) c 1)).trans (v11_at7 m ρ c))

set_option maxHeartbeats 1000000 in
theorem v43_at9 : W9 m ρ c (Proc.devRef .tc main_v43)
    = aggOf (W8 m ρ c (Proc.devRef .tc main_v30)) (normOf (argv m c main_arg1)) (argv m c main_arg1) (argv m c main_arg2) := by
  have h8 := v8_at8 m ρ c
  have h1 := arg1_at8 m ρ c
  have h2 := arg2_at8 m ρ c
  show StableHlo.after hostOps2 (W8 m ρ c) (Proc.devRef .tc main_v43) = _
  generalize W8 m ρ c = X at h8 h1 h2 ⊢
  after_results_simp
  rw [h8, h1, h2]
  rfl
theorem v8_at9 : W9 m ρ c (Proc.devRef .tc main_v8) = normOf (argv m c main_arg1) := by
  have h := v8_at8 m ρ c
  show StableHlo.after hostOps2 (W8 m ρ c) (Proc.devRef .tc main_v8) = _
  generalize W8 m ρ c = X at h ⊢
  after_results
  exact h
theorem v11_at9 : W9 m ρ c (Proc.devRef .tc main_v11) = shapeCast S100000x1 (normOf (argv m c main_arg2)) shapeCasts_S100000_S100000x1 := by
  have h := v11_at8 m ρ c
  show StableHlo.after hostOps2 (W8 m ρ c) (Proc.devRef .tc main_v11) = _
  generalize W8 m ρ c = X at h ⊢
  after_results
  exact h
theorem arg1_at9 : W9 m ρ c (Proc.devRef .tc main_arg1) = argv m c main_arg1 := by
  have h := arg1_at8 m ρ c
  show StableHlo.after hostOps2 (W8 m ρ c) (Proc.devRef .tc main_arg1) = _
  generalize W8 m ρ c = X at h ⊢
  after_results
  exact h
theorem arg2_at9 : W9 m ρ c (Proc.devRef .tc main_arg2) = argv m c main_arg2 := by
  have h := arg2_at8 m ρ c
  show StableHlo.after hostOps2 (W8 m ρ c) (Proc.devRef .tc main_arg2) = _
  generalize W8 m ρ c = X at h ⊢
  after_results
  exact h
/-- An argument the earlier launches and stretches never touch, at the second launch's exit. -/
theorem arg11_at8 : W8 m ρ c (Proc.devRef .tc main_arg11) = argv m c main_arg11 := by
  have h6 : W6 m ρ c (Proc.devRef .tc main_arg11) = argv m c main_arg11 :=
    (W6_of_ne m ρ c main_arg11 (by decide)).trans (by after_results; all_goals rfl)
  refine (W8_of_ne m ρ c main_arg11 (by decide)).trans ?_
  show StableHlo.after hostOps1 (W6 m ρ c) (Proc.devRef .tc main_arg11) = _
  generalize W6 m ρ c = X at h6 ⊢
  after_results
  exact h6
theorem arg12_at8 : W8 m ρ c (Proc.devRef .tc main_arg12) = argv m c main_arg12 := by
  have h6 : W6 m ρ c (Proc.devRef .tc main_arg12) = argv m c main_arg12 :=
    (W6_of_ne m ρ c main_arg12 (by decide)).trans (by after_results; all_goals rfl)
  refine (W8_of_ne m ρ c main_arg12 (by decide)).trans ?_
  show StableHlo.after hostOps1 (W6 m ρ c) (Proc.devRef .tc main_arg12) = _
  generalize W6 m ρ c = X at h6 ⊢
  after_results
  exact h6
theorem arg11_at9 : W9 m ρ c (Proc.devRef .tc main_arg11) = argv m c main_arg11 := by
  have h := arg11_at8 m ρ c
  show StableHlo.after hostOps2 (W8 m ρ c) (Proc.devRef .tc main_arg11) = _
  generalize W8 m ρ c = X at h ⊢
  after_results
  exact h
theorem v44_at9 : W9 m ρ c (Proc.devRef .tc main_v44) = shapeCast S1x64 (argv m c main_arg12) shapeCasts_S64_S1x64 := by
  have h := arg12_at8 m ρ c
  show StableHlo.after hostOps2 (W8 m ρ c) (Proc.devRef .tc main_v44) = _
  generalize W8 m ρ c = X at h ⊢
  after_results
  rw [h]; rfl

/-! ## Across the third launch, and the third aggregation -/

theorem v8_at10 : W10 m ρ c (Proc.devRef .tc main_v8) = normOf (argv m c main_arg1) :=
  (W10_of_ne m ρ c main_v8 (by decide)).trans (v8_at9 m ρ c)
theorem arg1_at10 : W10 m ρ c (Proc.devRef .tc main_arg1) = argv m c main_arg1 :=
  (W10_of_ne m ρ c main_arg1 (by decide)).trans (arg1_at9 m ρ c)
theorem arg2_at10 : W10 m ρ c (Proc.devRef .tc main_arg2) = argv m c main_arg2 :=
  (W10_of_ne m ρ c main_arg2 (by decide)).trans (arg2_at9 m ρ c)
theorem v11_at10 : W10 m ρ c (Proc.devRef .tc main_v11) = shapeCast S100000x1 (normOf (argv m c main_arg2)) shapeCasts_S100000_S100000x1 :=
  (W10_arr m ρ c 1).trans ((((dat2 (V9 m ρ) c).arrAt_in 1 rfl _).trans (A_eq2 (V9 m ρ) c 1)).trans (v11_at9 m ρ c))

set_option maxHeartbeats 1000000 in
theorem v58_at11 : W11 m ρ c (Proc.devRef .tc main_v58)
    = aggOf (W10 m ρ c (Proc.devRef .tc main_v45)) (normOf (argv m c main_arg1)) (argv m c main_arg1) (argv m c main_arg2) := by
  have h8 := v8_at10 m ρ c
  have h1 := arg1_at10 m ρ c
  have h2 := arg2_at10 m ρ c
  show StableHlo.after hostOps3 (W10 m ρ c) (Proc.devRef .tc main_v58) = _
  generalize W10 m ρ c = X at h8 h1 h2 ⊢
  after_results_simp
  rw [h8, h1, h2]
  rfl
theorem v8_at11 : W11 m ρ c (Proc.devRef .tc main_v8) = normOf (argv m c main_arg1) := by
  have h := v8_at10 m ρ c
  show StableHlo.after hostOps3 (W10 m ρ c) (Proc.devRef .tc main_v8) = _
  generalize W10 m ρ c = X at h ⊢
  after_results
  exact h
theorem v11_at11 : W11 m ρ c (Proc.devRef .tc main_v11) = shapeCast S100000x1 (normOf (argv m c main_arg2)) shapeCasts_S100000_S100000x1 := by
  have h := v11_at10 m ρ c
  show StableHlo.after hostOps3 (W10 m ρ c) (Proc.devRef .tc main_v11) = _
  generalize W10 m ρ c = X at h ⊢
  after_results
  exact h
theorem arg1_at11 : W11 m ρ c (Proc.devRef .tc main_arg1) = argv m c main_arg1 := by
  have h := arg1_at10 m ρ c
  show StableHlo.after hostOps3 (W10 m ρ c) (Proc.devRef .tc main_arg1) = _
  generalize W10 m ρ c = X at h ⊢
  after_results
  exact h
theorem arg2_at11 : W11 m ρ c (Proc.devRef .tc main_arg2) = argv m c main_arg2 := by
  have h := arg2_at10 m ρ c
  show StableHlo.after hostOps3 (W10 m ρ c) (Proc.devRef .tc main_arg2) = _
  generalize W10 m ρ c = X at h ⊢
  after_results
  exact h
theorem arg13_at8 : W8 m ρ c (Proc.devRef .tc main_arg13) = argv m c main_arg13 := by
  have h6 : W6 m ρ c (Proc.devRef .tc main_arg13) = argv m c main_arg13 :=
    (W6_of_ne m ρ c main_arg13 (by decide)).trans (by after_results; all_goals rfl)
  refine (W8_of_ne m ρ c main_arg13 (by decide)).trans ?_
  show StableHlo.after hostOps1 (W6 m ρ c) (Proc.devRef .tc main_arg13) = _
  generalize W6 m ρ c = X at h6 ⊢
  after_results
  exact h6
theorem arg14_at8 : W8 m ρ c (Proc.devRef .tc main_arg14) = argv m c main_arg14 := by
  have h6 : W6 m ρ c (Proc.devRef .tc main_arg14) = argv m c main_arg14 :=
    (W6_of_ne m ρ c main_arg14 (by decide)).trans (by after_results; all_goals rfl)
  refine (W8_of_ne m ρ c main_arg14 (by decide)).trans ?_
  show StableHlo.after hostOps1 (W6 m ρ c) (Proc.devRef .tc main_arg14) = _
  generalize W6 m ρ c = X at h6 ⊢
  after_results
  exact h6
theorem arg13_at10 : W10 m ρ c (Proc.devRef .tc main_arg13) = argv m c main_arg13 := by
  have h := arg13_at8 m ρ c
  refine (W10_of_ne m ρ c main_arg13 (by decide)).trans ?_
  show StableHlo.after hostOps2 (W8 m ρ c) (Proc.devRef .tc main_arg13) = _
  generalize W8 m ρ c = X at h ⊢
  after_results
  exact h
theorem arg14_at10 : W10 m ρ c (Proc.devRef .tc main_arg14) = argv m c main_arg14 := by
  have h := arg14_at8 m ρ c
  refine (W10_of_ne m ρ c main_arg14 (by decide)).trans ?_
  show StableHlo.after hostOps2 (W8 m ρ c) (Proc.devRef .tc main_arg14) = _
  generalize W8 m ρ c = X at h ⊢
  after_results
  exact h
theorem arg13_at11 : W11 m ρ c (Proc.devRef .tc main_arg13) = argv m c main_arg13 := by
  have h := arg13_at10 m ρ c
  show StableHlo.after hostOps3 (W10 m ρ c) (Proc.devRef .tc main_arg13) = _
  generalize W10 m ρ c = X at h ⊢
  after_results
  exact h
theorem v59_at11 : W11 m ρ c (Proc.devRef .tc main_v59) = shapeCast S1x64 (argv m c main_arg14) shapeCasts_S64_S1x64 := by
  have h := arg14_at10 m ρ c
  show StableHlo.after hostOps3 (W10 m ρ c) (Proc.devRef .tc main_v59) = _
  generalize W10 m ρ c = X at h ⊢
  after_results
  rw [h]; rfl

/-! ## Across the fourth launch, and the fourth aggregation -/

theorem v8_at12 : W12 m ρ c (Proc.devRef .tc main_v8) = normOf (argv m c main_arg1) :=
  (W12_of_ne m ρ c main_v8 (by decide)).trans (v8_at11 m ρ c)
theorem arg1_at12 : W12 m ρ c (Proc.devRef .tc main_arg1) = argv m c main_arg1 :=
  (W12_of_ne m ρ c main_arg1 (by decide)).trans (arg1_at11 m ρ c)
theorem arg2_at12 : W12 m ρ c (Proc.devRef .tc main_arg2) = argv m c main_arg2 :=
  (W12_of_ne m ρ c main_arg2 (by decide)).trans (arg2_at11 m ρ c)
theorem v11_at12 : W12 m ρ c (Proc.devRef .tc main_v11) = shapeCast S100000x1 (normOf (argv m c main_arg2)) shapeCasts_S100000_S100000x1 :=
  (W12_arr m ρ c 1).trans ((((dat3 (V11 m ρ) c).arrAt_in 1 rfl _).trans (A_eq3 (V11 m ρ) c 1)).trans (v11_at11 m ρ c))

set_option maxHeartbeats 1000000 in
theorem v73_at13 : W13 m ρ c (Proc.devRef .tc main_v73)
    = aggOf (W12 m ρ c (Proc.devRef .tc main_v60)) (normOf (argv m c main_arg1)) (argv m c main_arg1) (argv m c main_arg2) := by
  have h8 := v8_at12 m ρ c
  have h1 := arg1_at12 m ρ c
  have h2 := arg2_at12 m ρ c
  show StableHlo.after hostOps4 (W12 m ρ c) (Proc.devRef .tc main_v73) = _
  generalize W12 m ρ c = X at h8 h1 h2 ⊢
  after_results_simp
  rw [h8, h1, h2]
  rfl
theorem v11_at13 : W13 m ρ c (Proc.devRef .tc main_v11) = shapeCast S100000x1 (normOf (argv m c main_arg2)) shapeCasts_S100000_S100000x1 := by
  have h := v11_at12 m ρ c
  show StableHlo.after hostOps4 (W12 m ρ c) (Proc.devRef .tc main_v11) = _
  generalize W12 m ρ c = X at h ⊢
  after_results
  exact h
theorem arg15_at8 : W8 m ρ c (Proc.devRef .tc main_arg15) = argv m c main_arg15 := by
  have h6 : W6 m ρ c (Proc.devRef .tc main_arg15) = argv m c main_arg15 :=
    (W6_of_ne m ρ c main_arg15 (by decide)).trans (by after_results; all_goals rfl)
  refine (W8_of_ne m ρ c main_arg15 (by decide)).trans ?_
  show StableHlo.after hostOps1 (W6 m ρ c) (Proc.devRef .tc main_arg15) = _
  generalize W6 m ρ c = X at h6 ⊢
  after_results
  exact h6
theorem arg16_at8 : W8 m ρ c (Proc.devRef .tc main_arg16) = argv m c main_arg16 := by
  have h6 : W6 m ρ c (Proc.devRef .tc main_arg16) = argv m c main_arg16 :=
    (W6_of_ne m ρ c main_arg16 (by decide)).trans (by after_results; all_goals rfl)
  refine (W8_of_ne m ρ c main_arg16 (by decide)).trans ?_
  show StableHlo.after hostOps1 (W6 m ρ c) (Proc.devRef .tc main_arg16) = _
  generalize W6 m ρ c = X at h6 ⊢
  after_results
  exact h6
theorem arg15_at10 : W10 m ρ c (Proc.devRef .tc main_arg15) = argv m c main_arg15 := by
  have h := arg15_at8 m ρ c
  refine (W10_of_ne m ρ c main_arg15 (by decide)).trans ?_
  show StableHlo.after hostOps2 (W8 m ρ c) (Proc.devRef .tc main_arg15) = _
  generalize W8 m ρ c = X at h ⊢
  after_results
  exact h
theorem arg16_at10 : W10 m ρ c (Proc.devRef .tc main_arg16) = argv m c main_arg16 := by
  have h := arg16_at8 m ρ c
  refine (W10_of_ne m ρ c main_arg16 (by decide)).trans ?_
  show StableHlo.after hostOps2 (W8 m ρ c) (Proc.devRef .tc main_arg16) = _
  generalize W8 m ρ c = X at h ⊢
  after_results
  exact h
theorem arg15_at12 : W12 m ρ c (Proc.devRef .tc main_arg15) = argv m c main_arg15 := by
  have h := arg15_at10 m ρ c
  refine (W12_of_ne m ρ c main_arg15 (by decide)).trans ?_
  show StableHlo.after hostOps3 (W10 m ρ c) (Proc.devRef .tc main_arg15) = _
  generalize W10 m ρ c = X at h ⊢
  after_results
  exact h
theorem arg16_at12 : W12 m ρ c (Proc.devRef .tc main_arg16) = argv m c main_arg16 := by
  have h := arg16_at10 m ρ c
  refine (W12_of_ne m ρ c main_arg16 (by decide)).trans ?_
  show StableHlo.after hostOps3 (W10 m ρ c) (Proc.devRef .tc main_arg16) = _
  generalize W10 m ρ c = X at h ⊢
  after_results
  exact h
theorem arg15_at13 : W13 m ρ c (Proc.devRef .tc main_arg15) = argv m c main_arg15 := by
  have h := arg15_at12 m ρ c
  show StableHlo.after hostOps4 (W12 m ρ c) (Proc.devRef .tc main_arg15) = _
  generalize W12 m ρ c = X at h ⊢
  after_results
  exact h
theorem v74_at13 : W13 m ρ c (Proc.devRef .tc main_v74) = shapeCast S1x40 (argv m c main_arg16) shapeCasts_S40_S1x40 := by
  have h := arg16_at12 m ρ c
  show StableHlo.after hostOps4 (W12 m ρ c) (Proc.devRef .tc main_v74) = _
  generalize W12 m ρ c = X at h ⊢
  after_results
  rw [h]; rfl

end Cert.KernelIdeal.GcnWalk

end
-- ==== Proof.Spec.lean ====
/-
  The mathematics both programs compute, stated once over matrices of extended reals.

  A dense layer sends an n×k matrix A, a k×c matrix W and a bias b (one entry per output column) to the n×c
  matrix whose entry (r, q) is max(∑ⱼ A(r, j) · W(j, q) + b(q), 0).  Entry (r, q) depends on row r of A only, so a
  layer may be computed on any block of rows by itself, and so may a composition of layers (`dense_rows`).
  A graph-convolution step first scales row r of the aggregated features by the node's normalisation s(r)
  (`scaleRows`) and then applies a dense layer.
-/
import Idealize.ShloMosaic.PureOps.Ideal
import Idealize.ShloMosaic.Lib.ValueIdx

noncomputable section

namespace Cert.Gcn

open Idealize.ShloMosaic Idealize.ShloMosaic.ValueIdx

/-- An n×k matrix of extended reals. -/
abbrev Mat (n k : Nat) : Type := FVec Ideal (⟨2, ![n, k]⟩ : Shape) .f32

/-- The zero every layer clips at: the float word 0x00000000 read as an extended real. -/
abbrev zero : EReal := Ideal.ofBits .f32 0x00000000#32

/-- Row and column of an index of an n×c matrix, as numbers below n and c. -/
abbrev rowOf {n c : Nat} (i : (⟨2, ![n, c]⟩ : Shape).Idx) : Fin n := ⟨(i 0).val, (i 0).isLt⟩
abbrev colOf {n c : Nat} (i : (⟨2, ![n, c]⟩ : Shape).Idx) : Fin c := ⟨(i 1).val, (i 1).isLt⟩

/-- A dense layer with its clip at zero: entry (r, q) is max(∑ⱼ A(r, j) · W(j, q) + b(q), 0). -/
def dense {n k c : Nat} (A : Mat n k) (W : Mat k c) (b : Fin c → EReal) : Mat n c :=
  fun i => max ((∑ j : Fin k, A (ix2 (rowOf i) j) * W (ix2 j (colOf i))) + b (colOf i)) zero

theorem dense_apply {n k c : Nat} (A : Mat n k) (W : Mat k c) (b : Fin c → EReal) (p : Fin n) (q : Fin c) :
    dense A W b (ix2 p q) = max ((∑ j : Fin k, A (ix2 p j) * W (ix2 j q)) + b q) zero := rfl

/-- Row r of the matrix scaled by s(r). -/
def scaleRows {n k : Nat} (A : Mat n k) (s : Fin n → EReal) : Mat n k :=
  fun i => A i * s (rowOf i)

theorem scaleRows_apply {n k : Nat} (A : Mat n k) (s : Fin n → EReal) (p : Fin n) (j : Fin k) :
    scaleRows A s (ix2 p j) = A (ix2 p j) * s p := rfl

/-- A dense layer's row p' of one matrix is its row p of another whose row p is the same. -/
theorem dense_rows {n n' k c : Nat} (A : Mat n k) (A' : Mat n' k) (W : Mat k c) (b : Fin c → EReal)
    (p : Fin n) (p' : Fin n') (h : ∀ j, A (ix2 p j) = A' (ix2 p' j)) (q : Fin c) :
    dense A W b (ix2 p q) = dense A' W b (ix2 p' q) := by
  rw [dense_apply, dense_apply]
  exact congrArg (fun x => max (x + b q) zero) (Finset.sum_congr rfl fun j _ => by rw [h j])

/-- The same for a matrix scaled row by row, when the two scales agree at the two rows. -/
theorem scaleRows_rows {n n' k : Nat} (A : Mat n k) (A' : Mat n' k) (s : Fin n → EReal) (s' : Fin n' → EReal)
    (p : Fin n) (p' : Fin n') (h : ∀ j, A (ix2 p j) = A' (ix2 p' j)) (hs : s p = s' p') (j : Fin k) :
    scaleRows A s (ix2 p j) = scaleRows A' s' (ix2 p' j) := by
  rw [scaleRows_apply, scaleRows_apply, h j, hs]

/-- Three dense layers in a row: the node features' multi-layer perceptron. -/
def mlp {n k1 k2 k3 c : Nat} (x : Mat n k1) (W1 : Mat k1 k2) (b1 : Fin k2 → EReal) (W2 : Mat k2 k3) (b2 : Fin k3 → EReal)
    (W3 : Mat k3 c) (b3 : Fin c → EReal) : Mat n c :=
  dense (dense (dense x W1 b1) W2 b2) W3 b3

/-- The perceptron's row p' on one matrix is its row p on another whose row p is the same. -/
theorem mlp_rows {n n' k1 k2 k3 c : Nat} (x : Mat n k1) (x' : Mat n' k1) (W1 : Mat k1 k2) (b1 : Fin k2 → EReal)
    (W2 : Mat k2 k3) (b2 : Fin k3 → EReal) (W3 : Mat k3 c) (b3 : Fin c → EReal)
    (p : Fin n) (p' : Fin n') (h : ∀ j, x (ix2 p j) = x' (ix2 p' j)) (q : Fin c) :
    mlp x W1 b1 W2 b2 W3 b3 (ix2 p q) = mlp x' W1 b1 W2 b2 W3 b3 (ix2 p' q) :=
  dense_rows _ _ W3 b3 p p' (fun j3 => dense_rows _ _ W2 b2 p p' (fun j2 => dense_rows _ _ W1 b1 p p' h j2) j3) q

/-- One graph-convolution step after aggregation: scale the rows, then a dense layer. -/
def gconv {n k c : Nat} (A : Mat n k) (s : Fin n → EReal) (W : Mat k c) (b : Fin c → EReal) : Mat n c :=
  dense (scaleRows A s) W b

theorem gconv_rows {n n' k c : Nat} (A : Mat n k) (A' : Mat n' k) (s : Fin n → EReal) (s' : Fin n' → EReal)
    (W : Mat k c) (b : Fin c → EReal) (p : Fin n) (p' : Fin n') (h : ∀ j, A (ix2 p j) = A' (ix2 p' j)) (hs : s p = s' p')
    (q : Fin c) : gconv A s W b (ix2 p q) = gconv A' s' W b (ix2 p' q) :=
  dense_rows _ _ W b p p' (fun j => scaleRows_rows A A' s s' p p' h hs j) q

end Cert.Gcn

end
-- ==== Proof.Payload.lean ====
/-
  Each kernel body's arithmetic, on one block of rows, is the specification's layers on that block.

  A body reads a block of rows and the whole weight and bias arrays, and computes with them: a matrix product into the
  zero matrix, the bias row added to every row, the clip at zero — one dense layer — three times over for the
  perceptron, and once, after scaling row r of the block by the node's normalisation, for a graph-convolution step.
  Over the extended reals the narrowing of the product's operands changes nothing, so each of these is the
  specification's `dense`, `scaleRows`, `mlp` and `gconv` applied to the block.

  The steps: a matrix product read at an entry is the sum over the contracted axis (one lemma per product record);
  a column broadcast along the rows reads the column's entry of that row; from the two, one layer on a block is
  `dense` (`layer_of_mm`) and the scaling is `scaleRows` (`scale_block`); the bodies are compositions of those.
-/
import Idealize.ShloMosaic.PureOps.Ideal.Laws
import Idealize.ShloMosaic.Lib.ValueLayout
import proofs.«131599_j32418413150598_1_alg».proof.Proof.Spec
import proofs.«131599_j32418413150598_1_alg».proof.Proof.Gen.KernelIdeal.Skeleton

noncomputable section

namespace Cert.Gcn.Ker

open Cert.KernelIdeal Cert.KernelIdeal.Gen Cert.Gcn Idealize.ShloMosaic Idealize.ShloMosaic.ValueIdx

/-! ## A column broadcast along the rows -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product read at an entry -/

/-- The matrix product with record `dot_S2000x512_S512x512_S2000x512_1_0_0_1_n_n` into the zero matrix, read at row p and column q: the sum over the
    contracted axis of the operands' products. -/
theorem mm_512_512 (l : FVec Ideal S2000x512 .bf16) (r : FVec Ideal S512x512 .bf16) (p : Fin 2000) (q : Fin 512) :
    matmul dot_S2000x512_S512x512_S2000x512_1_0_0_1_n_n none l r (constant (F := Ideal) S2000x512 .f32 0x00000000#32) (ix2 p q)
      = ∑ j : Fin 512, l (ix2 p j) * r (ix2 j q) := by
  simp only [matmul]
  rw [Ideal.matmul_constant_zero_apply, ← Equiv.sum_comp (contrEquiv1 dot_S2000x512_S512x512_S2000x512_1_0_0_1_n_n 512 rfl rfl).symm]
  refine Finset.sum_congr rfl fun j _ => ?_
  have hj := contrEquiv1_symm_val dot_S2000x512_S512x512_S2000x512_1_0_0_1_n_n 512 rfl rfl j
  have el : dot_S2000x512_S512x512_S2000x512_1_0_0_1_n_n.lhsIdx (ix2 p q) ((contrEquiv1 dot_S2000x512_S512x512_S2000x512_1_0_0_1_n_n 512 rfl rfl).symm j) = ix2 p j :=
    funext fun a => Fin.ext (by
      match a with
      | ⟨0, _⟩ =>
        show (dot_S2000x512_S512x512_S2000x512_1_0_0_1_n_n.lhsIdx _ _ 0).val = p.val
        unfold DotDims.lhsIdx
        rw [dif_neg (show ¬(0 : Fin S2000x512.rank) ∈ dot_S2000x512_S512x512_S2000x512_1_0_0_1_n_n.lhsBatch by decide),
          dif_pos (show (0 : Fin S2000x512.rank) ∈ dot_S2000x512_S512x512_S2000x512_1_0_0_1_n_n.lhsNonContracting by decide)]
        rfl
      | ⟨1, _⟩ => exact (dot_S2000x512_S512x512_S2000x512_1_0_0_1_n_n.lhsIdx_val_of_single rfl _ _).trans hj)
  have er : dot_S2000x512_S512x512_S2000x512_1_0_0_1_n_n.rhsIdx (ix2 p q) ((contrEquiv1 dot_S2000x512_S512x512_S2000x512_1_0_0_1_n_n 512 rfl rfl).symm j) = ix2 j q :=
    funext fun a => Fin.ext (by
      match a with
      | ⟨0, _⟩ => exact (dot_S2000x512_S512x512_S2000x512_1_0_0_1_n_n.rhsIdx_val_of_single rfl _ _).trans hj
      | ⟨1, _⟩ =>
        show (dot_S2000x512_S512x512_S2000x512_1_0_0_1_n_n.rhsIdx _ _ 1).val = q.val
        unfold DotDims.rhsIdx
        rw [dif_neg (show ¬(1 : Fin S512x512.rank) ∈ dot_S2000x512_S512x512_S2000x512_1_0_0_1_n_n.rhsBatch by decide),
          dif_pos (show (1 : Fin S512x512.rank) ∈ dot_S2000x512_S512x512_S2000x512_1_0_0_1_n_n.rhsNonContracting by decide)]
        rfl)
  rw [el, er]

/-- The matrix product with record `dot_S2000x512_S512x256_S2000x256_1_0_0_1_n_n` into the zero matrix, read at row p and column q: the sum over the
    contracted axis of the operands' products. -/
theorem mm_512_256 (l : FVec Ideal S2000x512 .bf16) (r : FVec Ideal S512x256 .bf16) (p : Fin 2000) (q : Fin 256) :
    matmul dot_S2000x512_S512x256_S2000x256_1_0_0_1_n_n none l r (constant (F := Ideal) S2000x256 .f32 0x00000000#32) (ix2 p q)
      = ∑ j : Fin 512, l (ix2 p j) * r (ix2 j q) := by
  simp only [matmul]
  rw [Ideal.matmul_constant_zero_apply, ← Equiv.sum_comp (contrEquiv1 dot_S2000x512_S512x256_S2000x256_1_0_0_1_n_n 512 rfl rfl).symm]
  refine Finset.sum_congr rfl fun j _ => ?_
  have hj := contrEquiv1_symm_val dot_S2000x512_S512x256_S2000x256_1_0_0_1_n_n 512 rfl rfl j
  have el : dot_S2000x512_S512x256_S2000x256_1_0_0_1_n_n.lhsIdx (ix2 p q) ((contrEquiv1 dot_S2000x512_S512x256_S2000x256_1_0_0_1_n_n 512 rfl rfl).symm j) = ix2 p j :=
    funext fun a => Fin.ext (by
      match a with
      | ⟨0, _⟩ =>
        show (dot_S2000x512_S512x256_S2000x256_1_0_0_1_n_n.lhsIdx _ _ 0).val = p.val
        unfold DotDims.lhsIdx
        rw [dif_neg (show ¬(0 : Fin S2000x512.rank) ∈ dot_S2000x512_S512x256_S2000x256_1_0_0_1_n_n.lhsBatch by decide),
          dif_pos (show (0 : Fin S2000x512.rank) ∈ dot_S2000x512_S512x256_S2000x256_1_0_0_1_n_n.lhsNonContracting by decide)]
        rfl
      | ⟨1, _⟩ => exact (dot_S2000x512_S512x256_S2000x256_1_0_0_1_n_n.lhsIdx_val_of_single rfl _ _).trans hj)
  have er : dot_S2000x512_S512x256_S2000x256_1_0_0_1_n_n.rhsIdx (ix2 p q) ((contrEquiv1 dot_S2000x512_S512x256_S2000x256_1_0_0_1_n_n 512 rfl rfl).symm j) = ix2 j q :=
    funext fun a => Fin.ext (by
      match a with
      | ⟨0, _⟩ => exact (dot_S2000x512_S512x256_S2000x256_1_0_0_1_n_n.rhsIdx_val_of_single rfl _ _).trans hj
      | ⟨1, _⟩ =>
        show (dot_S2000x512_S512x256_S2000x256_1_0_0_1_n_n.rhsIdx _ _ 1).val = q.val
        unfold DotDims.rhsIdx
        rw [dif_neg (show ¬(1 : Fin S512x256.rank) ∈ dot_S2000x512_S512x256_S2000x256_1_0_0_1_n_n.rhsBatch by decide),
          dif_pos (show (1 : Fin S512x256.rank) ∈ dot_S2000x512_S512x256_S2000x256_1_0_0_1_n_n.rhsNonContracting by decide)]
        rfl)
  rw [el, er]

/-- The matrix product with record `dot_S2000x256_S256x64_S2000x64_1_0_0_1_n_n` into the zero matrix, read at row p and column q: the sum over the
    contracted axis of the operands' products. -/
theorem mm_256_64 (l : FVec Ideal S2000x256 .bf16) (r : FVec Ideal S256x64 .bf16) (p : Fin 2000) (q : Fin 64) :
    matmul dot_S2000x256_S256x64_S2000x64_1_0_0_1_n_n none l r (constant (F := Ideal) S2000x64 .f32 0x00000000#32) (ix2 p q)
      = ∑ j : Fin 256, l (ix2 p j) * r (ix2 j q) := by
  simp only [matmul]
  rw [Ideal.matmul_constant_zero_apply, ← Equiv.sum_comp (contrEquiv1 dot_S2000x256_S256x64_S2000x64_1_0_0_1_n_n 256 rfl rfl).symm]
  refine Finset.sum_congr rfl fun j _ => ?_
  have hj := contrEquiv1_symm_val dot_S2000x256_S256x64_S2000x64_1_0_0_1_n_n 256 rfl rfl j
  have el : dot_S2000x256_S256x64_S2000x64_1_0_0_1_n_n.lhsIdx (ix2 p q) ((contrEquiv1 dot_S2000x256_S256x64_S2000x64_1_0_0_1_n_n 256 rfl rfl).symm j) = ix2 p j :=
    funext fun a => Fin.ext (by
      match a with
      | ⟨0, _⟩ =>
        show (dot_S2000x256_S256x64_S2000x64_1_0_0_1_n_n.lhsIdx _ _ 0).val = p.val
        unfold DotDims.lhsIdx
        rw [dif_neg (show ¬(0 : Fin S2000x256.rank) ∈ dot_S2000x256_S256x64_S2000x64_1_0_0_1_n_n.lhsBatch by decide),
          dif_pos (show (0 : Fin S2000x256.rank) ∈ dot_S2000x256_S256x64_S2000x64_1_0_0_1_n_n.lhsNonContracting by decide)]
        rfl
      | ⟨1, _⟩ => exact (dot_S2000x256_S256x64_S2000x64_1_0_0_1_n_n.lhsIdx_val_of_single rfl _ _).trans hj)
  have er : dot_S2000x256_S256x64_S2000x64_1_0_0_1_n_n.rhsIdx (ix2 p q) ((contrEquiv1 dot_S2000x256_S256x64_S2000x64_1_0_0_1_n_n 256 rfl rfl).symm j) = ix2 j q :=
    funext fun a => Fin.ext (by
      match a with
      | ⟨0, _⟩ => exact (dot_S2000x256_S256x64_S2000x64_1_0_0_1_n_n.rhsIdx_val_of_single rfl _ _).trans hj
      | ⟨1, _⟩ =>
        show (dot_S2000x256_S256x64_S2000x64_1_0_0_1_n_n.rhsIdx _ _ 1).val = q.val
        unfold DotDims.rhsIdx
        rw [dif_neg (show ¬(1 : Fin S256x64.rank) ∈ dot_S2000x256_S256x64_S2000x64_1_0_0_1_n_n.rhsBatch by decide),
          dif_pos (show (1 : Fin S256x64.rank) ∈ dot_S2000x256_S256x64_S2000x64_1_0_0_1_n_n.rhsNonContracting by decide)]
        rfl)
  rw [el, er]

/-- The matrix product with record `dot_S2000x64_S64x64_S2000x64_1_0_0_1_n_n` into the zero matrix, read at row p and column q: the sum over the
    contracted axis of the operands' products. -/
theorem mm_64_64 (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ j : Fin 64, l (ix2 p j) * r (ix2 j q) := by
  simp only [matmul]
  rw [Ideal.matmul_constant_zero_apply, ← Equiv.sum_comp (contrEquiv1 dot_S2000x64_S64x64_S2000x64_1_0_0_1_n_n 64 rfl rfl).symm]
  refine Finset.sum_congr rfl fun j _ => ?_
  have hj := contrEquiv1_symm_val dot_S2000x64_S64x64_S2000x64_1_0_0_1_n_n 64 rfl rfl j
  have el : dot_S2000x64_S64x64_S2000x64_1_0_0_1_n_n.lhsIdx (ix2 p q) ((contrEquiv1 dot_S2000x64_S64x64_S2000x64_1_0_0_1_n_n 64 rfl rfl).symm j) = ix2 p j :=
    funext fun a => Fin.ext (by
      match a with
      | ⟨0, _⟩ =>
        show (dot_S2000x64_S64x64_S2000x64_1_0_0_1_n_n.lhsIdx _ _ 0).val = p.val
        unfold DotDims.lhsIdx
        rw [dif_neg (show ¬(0 : Fin S2000x64.rank) ∈ dot_S2000x64_S64x64_S2000x64_1_0_0_1_n_n.lhsBatch by decide),
          dif_pos (show (0 : Fin S2000x64.rank) ∈ dot_S2000x64_S64x64_S2000x64_1_0_0_1_n_n.lhsNonContracting by decide)]
        rfl
      | ⟨1, _⟩ => exact (dot_S2000x64_S64x64_S2000x64_1_0_0_1_n_n.lhsIdx_val_of_single rfl _ _).trans hj)
  have er : dot_S2000x64_S64x64_S2000x64_1_0_0_1_n_n.rhsIdx (ix2 p q) ((contrEquiv1 dot_S2000x64_S64x64_S2000x64_1_0_0_1_n_n 64 rfl rfl).symm j) = ix2 j q :=
    funext fun a => Fin.ext (by
      match a with
      | ⟨0, _⟩ => exact (dot_S2000x64_S64x64_S2000x64_1_0_0_1_n_n.rhsIdx_val_of_single rfl _ _).trans hj
      | ⟨1, _⟩ =>
        show (dot_S2000x64_S64x64_S2000x64_1_0_0_1_n_n.rhsIdx _ _ 1).val = q.val
        unfold DotDims.rhsIdx
        rw [dif_neg (show ¬(1 : Fin S64x64.rank) ∈ dot_S2000x64_S64x64_S2000x64_1_0_0_1_n_n.rhsBatch by decide),
          dif_pos (show (1 : Fin S64x64.rank) ∈ dot_S2000x64_S64x64_S2000x64_1_0_0_1_n_n.rhsNonContracting by decide)]
        rfl)
  rw [el, er]

/-- The matrix product with record `dot_S2000x64_S64x40_S2000x40_1_0_0_1_n_n` into the zero matrix, read at row p and column q: the sum over the
    contracted axis of the operands' products. -/
theorem mm_64_40 (l : FVec Ideal S2000x64 .bf16) (r : FVec Ideal S64x40 .bf16) (p : Fin 2000) (q : Fin 40) :
    matmul dot_S2000x64_S64x40_S2000x40_1_0_0_1_n_n none l r (constant (F := Ideal) S2000x40 .f32 0x00000000#32) (ix2 p q)
      = ∑ j : Fin 64, l (ix2 p j) * r (ix2 j q) := by
  simp only [matmul]
  rw [Ideal.matmul_constant_zero_apply, ← Equiv.sum_comp (contrEquiv1 dot_S2000x64_S64x40_S2000x40_1_0_0_1_n_n 64 rfl rfl).symm]
  refine Finset.sum_congr rfl fun j _ => ?_
  have hj := contrEquiv1_symm_val dot_S2000x64_S64x40_S2000x40_1_0_0_1_n_n 64 rfl rfl j
  have el : dot_S2000x64_S64x40_S2000x40_1_0_0_1_n_n.lhsIdx (ix2 p q) ((contrEquiv1 dot_S2000x64_S64x40_S2000x40_1_0_0_1_n_n 64 rfl rfl).symm j) = ix2 p j :=
    funext fun a => Fin.ext (by
      match a with
      | ⟨0, _⟩ =>
        show (dot_S2000x64_S64x40_S2000x40_1_0_0_1_n_n.lhsIdx _ _ 0).val = p.val
        unfold DotDims.lhsIdx
        rw [dif_neg (show ¬(0 : Fin S2000x64.rank) ∈ dot_S2000x64_S64x40_S2000x40_1_0_0_1_n_n.lhsBatch by decide),
          dif_pos (show (0 : Fin S2000x64.rank) ∈ dot_S2000x64_S64x40_S2000x40_1_0_0_1_n_n.lhsNonContracting by decide)]
        rfl
      | ⟨1, _⟩ => exact (dot_S2000x64_S64x40_S2000x40_1_0_0_1_n_n.lhsIdx_val_of_single rfl _ _).trans hj)
  have er : dot_S2000x64_S64x40_S2000x40_1_0_0_1_n_n.rhsIdx (ix2 p q) ((contrEquiv1 dot_S2000x64_S64x40_S2000x40_1_0_0_1_n_n 64 rfl rfl).symm j) = ix2 j q :=
    funext fun a => Fin.ext (by
      match a with
      | ⟨0, _⟩ => exact (dot_S2000x64_S64x40_S2000x40_1_0_0_1_n_n.rhsIdx_val_of_single rfl _ _).trans hj
      | ⟨1, _⟩ =>
        show (dot_S2000x64_S64x40_S2000x40_1_0_0_1_n_n.rhsIdx _ _ 1).val = q.val
        unfold DotDims.rhsIdx
        rw [dif_neg (show ¬(1 : Fin S64x40.rank) ∈ dot_S2000x64_S64x40_S2000x40_1_0_0_1_n_n.rhsBatch by decide),
          dif_pos (show (1 : Fin S64x40.rank) ∈ dot_S2000x64_S64x40_S2000x40_1_0_0_1_n_n.rhsNonContracting by decide)]
        rfl)
  rw [el, er]

/-! ## One layer, and the row scaling, on a block -/

/-- The row scaling of a block as the body computes it — the block times the normalisation column broadcast along the
    rows — is the specification's row scaling. -/
theorem scale_block {n k : ℕ} (A : Mat n k) (s : FVec Ideal (⟨2, ![n, 1]⟩ : Shape) .f32)
    (h1 : (⟨2, ![n, k]⟩ : Shape).ShapeCasts ⟨2, ![n, k]⟩) (h2 : (⟨2, ![n, 1]⟩ : Shape).ShapeCasts ⟨2, ![n, 1]⟩)
    (h3 : (⟨2, ![n, 1]⟩ : Shape).Broadcasts ⟨2, ![n, k]⟩) :
    mulf (shapeCast ⟨2, ![n, k]⟩ A h1) (broadcastTo ⟨2, ![n, k]⟩ (shapeCast ⟨2, ![n, 1]⟩ s h2) h3)
      = scaleRows A (fun p => s (ix2 p 0)) := by
  funext i
  obtain ⟨p, j, rfl⟩ : ∃ (p : Fin n) (j : Fin k), i = ix2 p j := ⟨i 0, i 1, eq_ix2 i⟩
  rw [mulf_apply, shapeCast_self, shapeCast_self, broadcastTo_a1_ab_apply, scaleRows_apply]

/-- One layer as a body computes it on a block — the product into the zero matrix, plus the bias row broadcast down
    the rows, clipped below at the zero word — is the specification's dense layer, for any product record whose
    entries are the plain sums (`hD`). -/
theorem layer_of_mm {n k c : ℕ} (D : DotDims ⟨2, ![n, k]⟩ ⟨2, ![k, c]⟩ ⟨2, ![n, c]⟩)
    (hD : ∀ (l : FVec Ideal (⟨2, ![n, k]⟩ : Shape) .bf16) (r : FVec Ideal (⟨2, ![k, c]⟩ : Shape) .bf16) (p : Fin n) (q : Fin c),
      matmul D none l r (constant (F := Ideal) ⟨2, ![n, c]⟩ .f32 0x00000000#32) (ix2 p q) = ∑ j : Fin k, l (ix2 p j) * r (ix2 j q))
    (x : Mat n k) (W : Mat k c) (b : FVec Ideal (⟨2, ![1, c]⟩ : Shape) .f32)
    (ht : FTy.bf16.bits < FTy.f32.bits) (hs : (⟨2, ![1, c]⟩ : Shape).ShapeCasts ⟨2, ![1, c]⟩)
    (hb : (⟨2, ![1, c]⟩ : Shape).Broadcasts ⟨2, ![n, c]⟩) :
    maximumf
        (addf (matmul D none (truncf .bf16 x ht) (truncf .bf16 W ht) (constant (F := Ideal) ⟨2, ![n, c]⟩ .f32 0x00000000#32))
          (broadcastTo ⟨2, ![n, c]⟩ (shapeCast ⟨2, ![1, c]⟩ b hs) hb))
        (broadcast ⟨2, ![n, c]⟩ (Scalar.ofBits (F := Ideal) .f32 0x00000000#32))
      = dense x W (fun q => b (ix2 0 q)) := by
  funext i
  obtain ⟨p, q, rfl⟩ : ∃ (p : Fin n) (q : Fin c), i = ix2 p q := ⟨i 0, i 1, eq_ix2 i⟩
  rw [maximumf_apply, addf_apply, broadcast_apply, hD, shapeCast_self, broadcastTo_1b_ab_apply, dense_apply]
  rfl

/-! ## The bodies -/

/-- The perceptron's body on a block of rows: three dense layers, each on the block the one before produced. -/
theorem pay_mlp (xb : Vec Ideal S2000x512 .f32) (W1 : Vec Ideal S512x512 .f32) (b1 : Vec Ideal S1x512 .f32)
    (W2 : Vec Ideal S512x256 .f32) (b2 : Vec Ideal S1x256 .f32) (W3 : Vec Ideal S256x64 .f32) (b3 : Vec Ideal S1x64 .f32) :
    k0_pay1 (F := Ideal) xb W1 b1 W2 b2 W3 b3
      = mlp xb W1 (fun q => b1 (ix2 0 q)) W2 (fun q => b2 (ix2 0 q)) W3 (fun q => b3 (ix2 0 q)) := by
  unfold k0_pay1
  dsimp only
  rw [layer_of_mm _ mm_512_512, layer_of_mm _ mm_512_256, layer_of_mm _ mm_256_64]
  rfl

/-- A graph-convolution body on a block of rows: the block's rows scaled, then one dense layer. -/
theorem pay_gc1 (ab : Vec Ideal S2000x64 .f32) (nb : Vec Ideal S2000x1 .f32) (W : Vec Ideal S64x64 .f32) (br : Vec Ideal S1x64 .f32) :
    k1_pay1 (F := Ideal) ab nb W br = gconv ab (fun p => nb (ix2 p 0)) W (fun q => br (ix2 0 q)) := by
  unfold k1_pay1
  dsimp only
  rw [scale_block, layer_of_mm _ mm_64_64]
  rfl

/-- The second and third steps' bodies are the first's. -/
theorem pay_gc2 (ab : Vec Ideal S2000x64 .f32) (nb : Vec Ideal S2000x1 .f32) (W : Vec Ideal S64x64 .f32) (br : Vec Ideal S1x64 .f32) :
    k2_pay1 (F := Ideal) ab nb W br = gconv ab (fun p => nb (ix2 p 0)) W (fun q => br (ix2 0 q)) :=
  (show k2_pay1 (F := Ideal) ab nb W br = k1_pay1 (F := Ideal) ab nb W br from rfl).trans (pay_gc1 ab nb W br)

theorem pay_gc3 (ab : Vec Ideal S2000x64 .f32) (nb : Vec Ideal S2000x1 .f32) (W : Vec Ideal S64x64 .f32) (br : Vec Ideal S1x64 .f32) :
    k3_pay1 (F := Ideal) ab nb W br = gconv ab (fun p => nb (ix2 p 0)) W (fun q => br (ix2 0 q)) :=
  (show k3_pay1 (F := Ideal) ab nb W br = k1_pay1 (F := Ideal) ab nb W br from rfl).trans (pay_gc1 ab nb W br)

/-- The last step's body, onto the 40 output columns. -/
theorem pay_gc4 (ab : Vec Ideal S2000x64 .f32) (nb : Vec Ideal S2000x1 .f32) (W : Vec Ideal S64x40 .f32) (br : Vec Ideal S1x40 .f32) :
    k4_pay1 (F := Ideal) ab nb W br = gconv ab (fun p => nb (ix2 p 0)) W (fun q => br (ix2 0 q)) := by
  unfold k4_pay1
  dsimp only
  rw [scale_block, layer_of_mm _ mm_64_40]
  rfl

end Cert.Gcn.Ker

end
-- ==== Proof.Rows.lean ====
/-
  Rows of a layer.  Entry (r, q) of a dense layer reads row r of its input, column q of the weights and entry q
  of the bias, and nothing else; so two layers whose inputs agree on one row, whose weights agree on one column
  and whose biases agree at one entry agree at that entry — whatever the heights of the two inputs.  This is what
  lets a launch compute a layer block of rows by block of rows.
-/
import proofs.«131599_j32418413150598_1_alg».proof.Proof.Spec

noncomputable section

namespace Cert.Gcn

open Idealize.ShloMosaic Idealize.ShloMosaic.ValueIdx

/-- An index of an n×c matrix is its row and column put together. -/
theorem eq_rowcol {n c : Nat} (i : (⟨2, ![n, c]⟩ : Shape).Idx) : i = ix2 (rowOf i) (colOf i) := by
  funext a; apply Fin.ext
  match a with
  | ⟨0, _⟩ => rfl
  | ⟨1, _⟩ => rfl

theorem dense_congr {n n' k c : Nat} (A : Mat n k) (A' : Mat n' k) (W W' : Mat k c) (b b' : Fin c → EReal)
    (p : Fin n) (p' : Fin n') (q : Fin c)
    (hA : ∀ j, A (ix2 p j) = A' (ix2 p' j)) (hW : ∀ j, W (ix2 j q) = W' (ix2 j q)) (hb : b q = b' q) :
    dense A W b (ix2 p q) = dense A' W' b' (ix2 p' q) := by
  rw [dense_apply, dense_apply, hb]
  exact congrArg (fun x => max (x + b' q) zero) (Finset.sum_congr rfl fun j _ => by rw [hA j, hW j])

theorem gconv_congr {n n' k c : Nat} (A : Mat n k) (A' : Mat n' k) (s : Fin n → EReal) (s' : Fin n' → EReal)
    (W W' : Mat k c) (b b' : Fin c → EReal) (p : Fin n) (p' : Fin n') (q : Fin c)
    (hA : ∀ j, A (ix2 p j) = A' (ix2 p' j)) (hs : s p = s' p')
    (hW : ∀ j, W (ix2 j q) = W' (ix2 j q)) (hb : b q = b' q) :
    gconv A s W b (ix2 p q) = gconv A' s' W' b' (ix2 p' q) :=
  dense_congr _ _ W W' b b' p p' q (fun j => scaleRows_rows A A' s s' p p' hA hs j) hW hb

theorem mlp_congr {n n' k1 k2 k3 c : Nat} (x : Mat n k1) (x' : Mat n' k1)
    (W1 W1' : Mat k1 k2) (b1 b1' : Fin k2 → EReal) (W2 W2' : Mat k2 k3) (b2 b2' : Fin k3 → EReal)
    (W3 W3' : Mat k3 c) (b3 b3' : Fin c → EReal) (p : Fin n) (p' : Fin n') (q : Fin c)
    (hx : ∀ j, x (ix2 p j) = x' (ix2 p' j))
    (hW1 : ∀ i j, W1 (ix2 i j) = W1' (ix2 i j)) (hb1 : ∀ j, b1 j = b1' j)
    (hW2 : ∀ i j, W2 (ix2 i j) = W2' (ix2 i j)) (hb2 : ∀ j, b2 j = b2' j)
    (hW3 : ∀ i, W3 (ix2 i q) = W3' (ix2 i q)) (hb3 : b3 q = b3' q) :
    mlp x W1 b1 W2 b2 W3 b3 (ix2 p q) = mlp x' W1' b1' W2' b2' W3' b3' (ix2 p' q) :=
  dense_congr _ _ W3 W3' b3 b3' p p' q
    (fun j3 => dense_congr _ _ W2 W2' b2 b2' p p' j3
      (fun j2 => dense_congr _ _ W1 W1' b1 b1' p p' j2 hx (fun j => hW1 j j2) (hb1 j2))
      (fun j => hW2 j j3) (hb2 j3))
    hW3 hb3

end Cert.Gcn

end
-- ==== Proof.Blocks.lean ====
/-
  From blocks to arrays.  Each launch computes its layer one block of 2000 rows at a time: at grid point t it reads rows
  2000·t … 2000·t + 1999 of the feature array (and of the normalisations), the whole weights and bias, and writes
  the layer of that block to the same rows of its output array.  Entry (r, q) of a layer reads row r of its input
  only, so the block's layer at row r − 2000·t is the whole array's layer at row r; the fifty blocks cover the
  100000 rows; hence after the launch the output array is the layer of the whole input arrays.
-/
import proofs.«131599_j32418413150598_1_alg».proof.Proof.Gen.KernelIdeal.Frame
import proofs.«131599_j32418413150598_1_alg».proof.Proof.Payload
import proofs.«131599_j32418413150598_1_alg».proof.Proof.Rows
import Idealize.ShloMosaic.Lib.Pipeline.Value

noncomputable section

namespace Cert.KernelIdeal.GcnBlocks

open Cert.KernelIdeal Cert.KernelIdeal.Gen Cert.Gcn Cert.Gcn.Ker
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access, however spelt. -/
theorem hz : (![0, 0] : Fin 2 → Nat) = fun _ => 0 := funext fun a => by fin_cases a <;> rfl

/-! ## A layer's entry from a block of rows -/

/-- Entry y of a graph-convolution step on a block of rows — the block Ab of the features, the block nb of the
    normalisations, the weights and bias as loaded — is entry i of the step on the whole arrays, when i is y moved down
    by the block's first row r0 and each loaded block reads its array at its own entries moved the same way. -/
theorem gconv_block {n N k c : ℕ} (Ab : Mat n k) (nb : FVec Ideal (⟨2, ![n, 1]⟩ : Shape) .f32) (Wb : Mat k c)
    (bb : FVec Ideal (⟨2, ![1, c]⟩ : Shape) .f32) (A : Mat N k) (s : FVec Ideal (⟨2, ![N, 1]⟩ : Shape) .f32) (W : Mat k c)
    (b : FVec Ideal (⟨2, ![1, c]⟩ : Shape) .f32) (r0 : ℕ) (y : (⟨2, ![n, c]⟩ : Shape).Idx) (i : (⟨2, ![N, c]⟩ : Shape).Idx)
    (hi0 : (i 0).val = r0 + (y 0).val) (hi1 : (i 1).val = (y 1).val)
    (hA : ∀ (y' : (⟨2, ![n, k]⟩ : Shape).Idx) (i' : (⟨2, ![N, k]⟩ : Shape).Idx),
      (i' 0).val = r0 + (y' 0).val → (i' 1).val = (y' 1).val → Ab y' = A i')
    (hn : ∀ (y' : (⟨2, ![n, 1]⟩ : Shape).Idx) (i' : (⟨2, ![N, 1]⟩ : Shape).Idx),
      (i' 0).val = r0 + (y' 0).val → (i' 1).val = (y' 1).val → nb y' = s i')
    (hW : ∀ j, Wb j = W j) (hb : ∀ j, bb j = b j) :
    gconv Ab (fun p => nb (ix2 p 0)) Wb (fun q => bb (ix2 0 q)) y
      = gconv A (fun r => s (ix2 r 0)) W (fun q => b (ix2 0 q)) i := by
  have hc : colOf y = colOf i := Fin.ext hi1.symm
  rw [eq_rowcol y, eq_rowcol i, hc]
  exact gconv_congr Ab A _ _ Wb W _ _ (rowOf y) (rowOf i) (colOf i)
    (fun j => hA _ _ hi0 rfl) (hn _ _ hi0 rfl) (fun j => hW _) (hb _)

/-- Entry y of the perceptron on a block of rows, the weights and biases as loaded, is entry i of the perceptron on the
    whole arrays, when i is y moved down by the block's first row r0 and the loaded block reads the features at its own
    entries moved the same way. -/
theorem mlp_block {n N k1 k2 k3 c : ℕ} (xb : Mat n k1) (W1b : Mat k1 k2) (b1b : FVec Ideal (⟨2, ![1, k2]⟩ : Shape) .f32)
    (W2b : Mat k2 k3) (b2b : FVec Ideal (⟨2, ![1, k3]⟩ : Shape) .f32) (W3b : Mat k3 c) (b3b : FVec Ideal (⟨2, ![1, c]⟩ : Shape) .f32)
    (x : Mat N k1) (W1 : Mat k1 k2) (b1 : FVec Ideal (⟨2, ![1, k2]⟩ : Shape) .f32)
    (W2 : Mat k2 k3) (b2 : FVec Ideal (⟨2, ![1, k3]⟩ : Shape) .f32) (W3 : Mat k3 c) (b3 : FVec Ideal (⟨2, ![1, c]⟩ : Shape) .f32)
    (r0 : ℕ) (y : (⟨2, ![n, c]⟩ : Shape).Idx) (i : (⟨2, ![N, c]⟩ : Shape).Idx)
    (hi0 : (i 0).val = r0 + (y 0).val) (hi1 : (i 1).val = (y 1).val)
    (hx : ∀ (y' : (⟨2, ![n, k1]⟩ : Shape).Idx) (i' : (⟨2, ![N, k1]⟩ : Shape).Idx),
      (i' 0).val = r0 + (y' 0).val → (i' 1).val = (y' 1).val → xb y' = x i')
    (hW1 : ∀ j, W1b j = W1 j) (hb1 : ∀ j, b1b j = b1 j) (hW2 : ∀ j, W2b j = W2 j) (hb2 : ∀ j, b2b j = b2 j)
    (hW3 : ∀ j, W3b j = W3 j) (hb3 : ∀ j, b3b j = b3 j) :
    mlp xb W1b (fun q => b1b (ix2 0 q)) W2b (fun q => b2b (ix2 0 q)) W3b (fun q => b3b (ix2 0 q)) y
      = mlp x W1 (fun q => b1 (ix2 0 q)) W2 (fun q => b2 (ix2 0 q)) W3 (fun q => b3 (ix2 0 q)) i := by
  have hc : colOf y = colOf i := Fin.ext hi1.symm
  rw [eq_rowcol y, eq_rowcol i, hc]
  exact mlp_congr xb x W1b W1 _ _ W2b W2 _ _ W3b W3 _ _ (rowOf y) (rowOf i) (colOf i)
    (fun j => hx _ _ hi0 rfl) (fun _ _ => hW1 _) (fun _ => hb1 _) (fun _ _ => hW2 _) (fun _ => hb2 _)
    (fun _ => hW3 _) (hb3 _)

/-! ## Launch 1 -/

/-- The index maps, decided over the grid: the row-block windows are at block t of their arrays at point t, the others at
    block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk1_0 (t : Fin cfg1.N) (y : S2000x64.Idx) (i : S100000x64.Idx)
    (h0 : (i 0).val = t.val * 2000 + (y 0).val) (h1 : (i 1).val = (y 1).val) :
    (iblk1 V c 0 t : Vec Ideal S2000x64 .f32) y = (V c main_v28 : S100000x64.Idx → EReal) i := by
  have e0 := (idx_facts1 t).1
  have e1 := (idx_facts1 t).2.1
  show V c main_v28 (((cfg1.win 0).blk t).view.emb y) = V c main_v28 i
  refine congrArg (V c main_v28) (funext fun a => Fin.ext ?_)
  match a with
  | ⟨0, _⟩ => show win1_0.index t (0 : Fin 2) * 2000 + 1 * (y 0).val = (i 0).val; omega
  | ⟨1, _⟩ => show win1_0.index t (1 : Fin 2) * 64 + 1 * (y 1).val = (i 1).val; omega

theorem blk1_1 (t : Fin cfg1.N) (y : S2000x1.Idx) (i : S100000x1.Idx)
    (h0 : (i 0).val = t.val * 2000 + (y 0).val) (h1 : (i 1).val = (y 1).val) :
    (iblk1 V c 1 t : Vec Ideal S2000x1 .f32) y = (V c main_v11 : S100000x1.Idx → EReal) i := by
  have e0 := (idx_facts1 t).2.2.1
  have e1 := (idx_facts1 t).2.2.2.1
  show V c main_v11 (((cfg1.win 1).blk t).view.emb y) = V c main_v11 i
  refine congrArg (V c main_v11) (funext fun a => Fin.ext ?_)
  match a with
  | ⟨0, _⟩ => show win1_1.index t (0 : Fin 2) * 2000 + 1 * (y 0).val = (i 0).val; omega
  | ⟨1, _⟩ => show win1_1.index t (1 : Fin 2) * 1 + 1 * (y 1).val = (i 1).val; omega

theorem blk1_2 (t : Fin cfg1.N) (y : S64x64.Idx) (i : S64x64.Idx)
    (h0 : (i 0).val = (y 0).val) (h1 : (i 1).val = (y 1).val) :
    (iblk1 V c 2 t : Vec Ideal S64x64 .f32) y = (V c main_arg9 : S64x64.Idx → EReal) i := by
  have e0 := (idx_facts1 t).2.2.2.2.1
  have e1 := (idx_facts1 t).2.2.2.2.2.1
  show V c main_arg9 (((cfg1.win 2).blk t).view.emb y) = V c main_arg9 i
  refine congrArg (V c main_arg9) (funext fun a => Fin.ext ?_)
  match a with
  | ⟨0, _⟩ => show win1_2.index t (0 : Fin 2) * 64 + 1 * (y 0).val = (i 0).val; omega
  | ⟨1, _⟩ => show win1_2.index t (1 : Fin 2) * 64 + 1 * (y 1).val = (i 1).val; omega

theorem blk1_3 (t : Fin cfg1.N) (y : S1x64.Idx) (i : S1x64.Idx)
    (h0 : (i 0).val = (y 0).val) (h1 : (i 1).val = (y 1).val) :
    (iblk1 V c 3 t : Vec Ideal S1x64 .f32) y = (V c main_v29 : S1x64.Idx → EReal) i := by
  have e0 := (idx_facts1 t).2.2.2.2.2.2.1
  have e1 := (idx_facts1 t).2.2.2.2.2.2.2.1
  show V c main_v29 (((cfg1.win 3).blk t).view.emb y) = V c main_v29 i
  refine congrArg (V c main_v29) (funext fun a => Fin.ext ?_)
  match a with
  | ⟨0, _⟩ => show win1_3.index t (0 : Fin 2) * 1 + 1 * (y 0).val = (i 0).val; omega
  | ⟨1, _⟩ => show win1_3.index t (1 : Fin 2) * 64 + 1 * (y 1).val = (i 1).val; omega

/-- What point t writes back is block t of the step's layer of the whole arrays. -/
theorem flushed1_eq (t : Fin cfg1.N) :
    (dat1 V c).flushed 4 t = ((cfg1.win 4).blk t).view.read (Elt Ideal)
      (gconv (V c main_v28) (fun r => V c main_v11 (ix2 r 0)) (V c main_arg9) (fun q => V c main_v29 (ix2 0 q))) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz,
    View.ld_unit_zero (S := S64x64) hz, View.ld_unit_zero (S := S1x64) hz]
  rw [pay_gc1]
  have e8 := (idx_facts1 t).2.2.2.2.2.2.2.2.1
  have e9 := (idx_facts1 t).2.2.2.2.2.2.2.2.2
  funext j
  show gconv (iblk1 V c 0 t) (fun p => iblk1 V c 1 t (ix2 p 0)) (iblk1 V c 2 t) (fun q => iblk1 V c 3 t (ix2 0 q)) j
    = gconv (V c main_v28) (fun r => V c main_v11 (ix2 r 0)) (V c main_arg9) (fun q => V c main_v29 (ix2 0 q)) (((cfg1.win 4).blk t).view.emb j)
  refine gconv_block (n := 2000) (N := 100000) (k := 64) (c := 64) (iblk1 V c 0 t) (iblk1 V c 1 t) (iblk1 V c 2 t) (iblk1 V c 3 t)
    (V c main_v28) (V c main_v11) (V c main_arg9) (V c main_v29) (t.val * 2000) j (((cfg1.win 4).blk t).view.emb j) ?_ ?_
    (fun y i h0 h1 => blk1_0 V c t y i h0 h1) (fun y i h0 h1 => blk1_1 V c t y i h0 h1)
    (fun y => blk1_2 V c t y y rfl rfl) (fun y => blk1_3 V c t y y rfl rfl)
  · show win1_4.index t (0 : Fin 2) * 2000 + 1 * (j 0).val = t.val * 2000 + (j 0).val; omega
  · show win1_4.index t (1 : Fin 2) * 64 + 1 * (j 1).val = (j 1).val; omega

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v30).slice (win1_4.rect t)).set ↔ _
  rw [View.set_slice_whole, Rect.mem_set_unit]
  exact Iff.rfl

/-- Row r of the output array is in the block of point r / 2000. -/
theorem cover1 (i : S100000x64.Idx) : ∃ t : Fin cfg1.N, (cfg1.win 4).flush t = true ∧ i ∈ ((cfg1.win 4).blk t).view.set := by
  have hN : cfg1.N = 50 := N_1
  have hi0 : (i 0).val < 100000 := (i 0).isLt
  have hi1 : (i 1).val < 64 := (i 1).isLt
  have ht : (i 0).val / 2000 < cfg1.N := by rw [hN]; omega
  refine ⟨⟨(i 0).val / 2000, ht⟩, flush1_4 _, ?_⟩
  have e8 : win1_4.index ⟨(i 0).val / 2000, ht⟩ (0 : Fin 2) = (i 0).val / 2000 := (idx_facts1 ⟨(i 0).val / 2000, ht⟩).2.2.2.2.2.2.2.2.1
  have e9 : win1_4.index ⟨(i 0).val / 2000, ht⟩ (1 : Fin 2) = 0 := (idx_facts1 ⟨(i 0).val / 2000, ht⟩).2.2.2.2.2.2.2.2.2
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e8]; omega
  | ⟨1, _⟩ =>
    show win1_4.index ⟨(i 0).val / 2000, ht⟩ (1 : Fin 2) * 64 ≤ (i 1).val
      ∧ (i 1).val < win1_4.index ⟨(i 0).val / 2000, ht⟩ (1 : Fin 2) * 64 + 64
    rw [e9]; omega

/-- The output array after the launch is the step's layer of the arrays the launch was entered with. -/
theorem arr1 : (dat1 V c).arrAt 4 cfg1.N
    = gconv (V c main_v28) (fun r => V c main_v11 (ix2 r 0)) (V c main_arg9) (fun q => V c main_v29 (ix2 0 q)) :=
  (dat1 V c).arrAt_eq_of_cover 4 _ (fun t _ => flushed1_eq V c t) (cover1)

/-! ## Launch 2 -/

/-- The index maps, decided over the grid: the row-block windows are at block t of their arrays at point t, the others at
    block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem blk2_0 (t : Fin cfg2.N) (y : S2000x64.Idx) (i : S100000x64.Idx)
    (h0 : (i 0).val = t.val * 2000 + (y 0).val) (h1 : (i 1).val = (y 1).val) :
    (iblk2 V c 0 t : Vec Ideal S2000x64 .f32) y = (V c main_v43 : S100000x64.Idx → EReal) i := by
  have e0 := (idx_facts2 t).1
  have e1 := (idx_facts2 t).2.1
  show V c main_v43 (((cfg2.win 0).blk t).view.emb y) = V c main_v43 i
  refine congrArg (V c main_v43) (funext fun a => Fin.ext ?_)
  match a with
  | ⟨0, _⟩ => show win2_0.index t (0 : Fin 2) * 2000 + 1 * (y 0).val = (i 0).val; omega
  | ⟨1, _⟩ => show win2_0.index t (1 : Fin 2) * 64 + 1 * (y 1).val = (i 1).val; omega

theorem blk2_1 (t : Fin cfg2.N) (y : S2000x1.Idx) (i : S100000x1.Idx)
    (h0 : (i 0).val = t.val * 2000 + (y 0).val) (h1 : (i 1).val = (y 1).val) :
    (iblk2 V c 1 t : Vec Ideal S2000x1 .f32) y = (V c main_v11 : S100000x1.Idx → EReal) i := by
  have e0 := (idx_facts2 t).2.2.1
  have e1 := (idx_facts2 t).2.2.2.1
  show V c main_v11 (((cfg2.win 1).blk t).view.emb y) = V c main_v11 i
  refine congrArg (V c main_v11) (funext fun a => Fin.ext ?_)
  match a with
  | ⟨0, _⟩ => show win2_1.index t (0 : Fin 2) * 2000 + 1 * (y 0).val = (i 0).val; omega
  | ⟨1, _⟩ => show win2_1.index t (1 : Fin 2) * 1 + 1 * (y 1).val = (i 1).val; omega

theorem blk2_2 (t : Fin cfg2.N) (y : S64x64.Idx) (i : S64x64.Idx)
    (h0 : (i 0).val = (y 0).val) (h1 : (i 1).val = (y 1).val) :
    (iblk2 V c 2 t : Vec Ideal S64x64 .f32) y = (V c main_arg11 : S64x64.Idx → EReal) i := by
  have e0 := (idx_facts2 t).2.2.2.2.1
  have e1 := (idx_facts2 t).2.2.2.2.2.1
  show V c main_arg11 (((cfg2.win 2).blk t).view.emb y) = V c main_arg11 i
  refine congrArg (V c main_arg11) (funext fun a => Fin.ext ?_)
  match a with
  | ⟨0, _⟩ => show win2_2.index t (0 : Fin 2) * 64 + 1 * (y 0).val = (i 0).val; omega
  | ⟨1, _⟩ => show win2_2.index t (1 : Fin 2) * 64 + 1 * (y 1).val = (i 1).val; omega

theorem blk2_3 (t : Fin cfg2.N) (y : S1x64.Idx) (i : S1x64.Idx)
    (h0 : (i 0).val = (y 0).val) (h1 : (i 1).val = (y 1).val) :
    (iblk2 V c 3 t : Vec Ideal S1x64 .f32) y = (V c main_v44 : S1x64.Idx → EReal) i := by
  have e0 := (idx_facts2 t).2.2.2.2.2.2.1
  have e1 := (idx_facts2 t).2.2.2.2.2.2.2.1
  show V c main_v44 (((cfg2.win 3).blk t).view.emb y) = V c main_v44 i
  refine congrArg (V c main_v44) (funext fun a => Fin.ext ?_)
  match a with
  | ⟨0, _⟩ => show win2_3.index t (0 : Fin 2) * 1 + 1 * (y 0).val = (i 0).val; omega
  | ⟨1, _⟩ => show win2_3.index t (1 : Fin 2) * 64 + 1 * (y 1).val = (i 1).val; omega

/-- What point t writes back is block t of the step's layer of the whole arrays. -/
theorem flushed2_eq (t : Fin cfg2.N) :
    (dat2 V c).flushed 4 t = ((cfg2.win 4).blk t).view.read (Elt Ideal)
      (gconv (V c main_v43) (fun r => V c main_v11 (ix2 r 0)) (V c main_arg11) (fun q => V c main_v44 (ix2 0 q))) := by
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz,
    View.ld_unit_zero (S := S64x64) hz, View.ld_unit_zero (S := S1x64) hz]
  rw [pay_gc2]
  have e8 := (idx_facts2 t).2.2.2.2.2.2.2.2.1
  have e9 := (idx_facts2 t).2.2.2.2.2.2.2.2.2
  funext j
  show gconv (iblk2 V c 0 t) (fun p => iblk2 V c 1 t (ix2 p 0)) (iblk2 V c 2 t) (fun q => iblk2 V c 3 t (ix2 0 q)) j
    = gconv (V c main_v43) (fun r => V c main_v11 (ix2 r 0)) (V c main_arg11) (fun q => V c main_v44 (ix2 0 q)) (((cfg2.win 4).blk t).view.emb j)
  refine gconv_block (n := 2000) (N := 100000) (k := 64) (c := 64) (iblk2 V c 0 t) (iblk2 V c 1 t) (iblk2 V c 2 t) (iblk2 V c 3 t)
    (V c main_v43) (V c main_v11) (V c main_arg11) (V c main_v44) (t.val * 2000) j (((cfg2.win 4).blk t).view.emb j) ?_ ?_
    (fun y i h0 h1 => blk2_0 V c t y i h0 h1) (fun y i h0 h1 => blk2_1 V c t y i h0 h1)
    (fun y => blk2_2 V c t y y rfl rfl) (fun y => blk2_3 V c t y y rfl rfl)
  · show win2_4.index t (0 : Fin 2) * 2000 + 1 * (j 0).val = t.val * 2000 + (j 0).val; omega
  · show win2_4.index t (1 : Fin 2) * 64 + 1 * (j 1).val = (j 1).val; omega

/-- An index of the output array is in point t's block iff each coordinate is in the block's range on its axis. -/
theorem mem_blk2 (t : Fin cfg2.N) (i : S100000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v45).slice (win2_4.rect t)).set ↔ _
  rw [View.set_slice_whole, Rect.mem_set_unit]
  exact Iff.rfl

/-- Row r of the output array is in the block of point r / 2000. -/
theorem cover2 (i : S100000x64.Idx) : ∃ t : Fin cfg2.N, (cfg2.win 4).flush t = true ∧ i ∈ ((cfg2.win 4).blk t).view.set := by
  have hN : cfg2.N = 50 := N_2
  have hi0 : (i 0).val < 100000 := (i 0).isLt
  have hi1 : (i 1).val < 64 := (i 1).isLt
  have ht : (i 0).val / 2000 < cfg2.N := by rw [hN]; omega
  refine ⟨⟨(i 0).val / 2000, ht⟩, flush2_4 _, ?_⟩
  have e8 : win2_4.index ⟨(i 0).val / 2000, ht⟩ (0 : Fin 2) = (i 0).val / 2000 := (idx_facts2 ⟨(i 0).val / 2000, ht⟩).2.2.2.2.2.2.2.2.1
  have e9 : win2_4.index ⟨(i 0).val / 2000, ht⟩ (1 : Fin 2) = 0 := (idx_facts2 ⟨(i 0).val / 2000, ht⟩).2.2.2.2.2.2.2.2.2
  rw [mem_blk2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e8]; omega
  | ⟨1, _⟩ =>
    show win2_4.index ⟨(i 0).val / 2000, ht⟩ (1 : Fin 2) * 64 ≤ (i 1).val
      ∧ (i 1).val < win2_4.index ⟨(i 0).val / 2000, ht⟩ (1 : Fin 2) * 64 + 64
    rw [e9]; omega

/-- The output array after the launch is the step's layer of the arrays the launch was entered with. -/
theorem arr2 : (dat2 V c).arrAt 4 cfg2.N
    = gconv (V c main_v43) (fun r => V c main_v11 (ix2 r 0)) (V c main_arg11) (fun q => V c main_v44 (ix2 0 q)) :=
  (dat2 V c).arrAt_eq_of_cover 4 _ (fun t _ => flushed2_eq V c t) (cover2)

/-! ## Launch 3 -/

/-- The index maps, decided over the grid: the row-block windows are at block t of their arrays at point t, the others at
    block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem blk3_0 (t : Fin cfg3.N) (y : S2000x64.Idx) (i : S100000x64.Idx)
    (h0 : (i 0).val = t.val * 2000 + (y 0).val) (h1 : (i 1).val = (y 1).val) :
    (iblk3 V c 0 t : Vec Ideal S2000x64 .f32) y = (V c main_v58 : S100000x64.Idx → EReal) i := by
  have e0 := (idx_facts3 t).1
  have e1 := (idx_facts3 t).2.1
  show V c main_v58 (((cfg3.win 0).blk t).view.emb y) = V c main_v58 i
  refine congrArg (V c main_v58) (funext fun a => Fin.ext ?_)
  match a with
  | ⟨0, _⟩ => show win3_0.index t (0 : Fin 2) * 2000 + 1 * (y 0).val = (i 0).val; omega
  | ⟨1, _⟩ => show win3_0.index t (1 : Fin 2) * 64 + 1 * (y 1).val = (i 1).val; omega

theorem blk3_1 (t : Fin cfg3.N) (y : S2000x1.Idx) (i : S100000x1.Idx)
    (h0 : (i 0).val = t.val * 2000 + (y 0).val) (h1 : (i 1).val = (y 1).val) :
    (iblk3 V c 1 t : Vec Ideal S2000x1 .f32) y = (V c main_v11 : S100000x1.Idx → EReal) i := by
  have e0 := (idx_facts3 t).2.2.1
  have e1 := (idx_facts3 t).2.2.2.1
  show V c main_v11 (((cfg3.win 1).blk t).view.emb y) = V c main_v11 i
  refine congrArg (V c main_v11) (funext fun a => Fin.ext ?_)
  match a with
  | ⟨0, _⟩ => show win3_1.index t (0 : Fin 2) * 2000 + 1 * (y 0).val = (i 0).val; omega
  | ⟨1, _⟩ => show win3_1.index t (1 : Fin 2) * 1 + 1 * (y 1).val = (i 1).val; omega

theorem blk3_2 (t : Fin cfg3.N) (y : S64x64.Idx) (i : S64x64.Idx)
    (h0 : (i 0).val = (y 0).val) (h1 : (i 1).val = (y 1).val) :
    (iblk3 V c 2 t : Vec Ideal S64x64 .f32) y = (V c main_arg13 : S64x64.Idx → EReal) i := by
  have e0 := (idx_facts3 t).2.2.2.2.1
  have e1 := (idx_facts3 t).2.2.2.2.2.1
  show V c main_arg13 (((cfg3.win 2).blk t).view.emb y) = V c main_arg13 i
  refine congrArg (V c main_arg13) (funext fun a => Fin.ext ?_)
  match a with
  | ⟨0, _⟩ => show win3_2.index t (0 : Fin 2) * 64 + 1 * (y 0).val = (i 0).val; omega
  | ⟨1, _⟩ => show win3_2.index t (1 : Fin 2) * 64 + 1 * (y 1).val = (i 1).val; omega

theorem blk3_3 (t : Fin cfg3.N) (y : S1x64.Idx) (i : S1x64.Idx)
    (h0 : (i 0).val = (y 0).val) (h1 : (i 1).val = (y 1).val) :
    (iblk3 V c 3 t : Vec Ideal S1x64 .f32) y = (V c main_v59 : S1x64.Idx → EReal) i := by
  have e0 := (idx_facts3 t).2.2.2.2.2.2.1
  have e1 := (idx_facts3 t).2.2.2.2.2.2.2.1
  show V c main_v59 (((cfg3.win 3).blk t).view.emb y) = V c main_v59 i
  refine congrArg (V c main_v59) (funext fun a => Fin.ext ?_)
  match a with
  | ⟨0, _⟩ => show win3_3.index t (0 : Fin 2) * 1 + 1 * (y 0).val = (i 0).val; omega
  | ⟨1, _⟩ => show win3_3.index t (1 : Fin 2) * 64 + 1 * (y 1).val = (i 1).val; omega

/-- What point t writes back is block t of the step's layer of the whole arrays. -/
theorem flushed3_eq (t : Fin cfg3.N) :
    (dat3 V c).flushed 4 t = ((cfg3.win 4).blk t).view.read (Elt Ideal)
      (gconv (V c main_v58) (fun r => V c main_v11 (ix2 r 0)) (V c main_arg13) (fun q => V c main_v59 (ix2 0 q))) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz,
    View.ld_unit_zero (S := S64x64) hz, View.ld_unit_zero (S := S1x64) hz]
  rw [pay_gc3]
  have e8 := (idx_facts3 t).2.2.2.2.2.2.2.2.1
  have e9 := (idx_facts3 t).2.2.2.2.2.2.2.2.2
  funext j
  show gconv (iblk3 V c 0 t) (fun p => iblk3 V c 1 t (ix2 p 0)) (iblk3 V c 2 t) (fun q => iblk3 V c 3 t (ix2 0 q)) j
    = gconv (V c main_v58) (fun r => V c main_v11 (ix2 r 0)) (V c main_arg13) (fun q => V c main_v59 (ix2 0 q)) (((cfg3.win 4).blk t).view.emb j)
  refine gconv_block (n := 2000) (N := 100000) (k := 64) (c := 64) (iblk3 V c 0 t) (iblk3 V c 1 t) (iblk3 V c 2 t) (iblk3 V c 3 t)
    (V c main_v58) (V c main_v11) (V c main_arg13) (V c main_v59) (t.val * 2000) j (((cfg3.win 4).blk t).view.emb j) ?_ ?_
    (fun y i h0 h1 => blk3_0 V c t y i h0 h1) (fun y i h0 h1 => blk3_1 V c t y i h0 h1)
    (fun y => blk3_2 V c t y y rfl rfl) (fun y => blk3_3 V c t y y rfl rfl)
  · show win3_4.index t (0 : Fin 2) * 2000 + 1 * (j 0).val = t.val * 2000 + (j 0).val; omega
  · show win3_4.index t (1 : Fin 2) * 64 + 1 * (j 1).val = (j 1).val; omega

/-- An index of the output array is in point t's block iff each coordinate is in the block's range on its axis. -/
theorem mem_blk3 (t : Fin cfg3.N) (i : S100000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v60).slice (win3_4.rect t)).set ↔ _
  rw [View.set_slice_whole, Rect.mem_set_unit]
  exact Iff.rfl

/-- Row r of the output array is in the block of point r / 2000. -/
theorem cover3 (i : S100000x64.Idx) : ∃ t : Fin cfg3.N, (cfg3.win 4).flush t = true ∧ i ∈ ((cfg3.win 4).blk t).view.set := by
  have hN : cfg3.N = 50 := N_3
  have hi0 : (i 0).val < 100000 := (i 0).isLt
  have hi1 : (i 1).val < 64 := (i 1).isLt
  have ht : (i 0).val / 2000 < cfg3.N := by rw [hN]; omega
  refine ⟨⟨(i 0).val / 2000, ht⟩, flush3_4 _, ?_⟩
  have e8 : win3_4.index ⟨(i 0).val / 2000, ht⟩ (0 : Fin 2) = (i 0).val / 2000 := (idx_facts3 ⟨(i 0).val / 2000, ht⟩).2.2.2.2.2.2.2.2.1
  have e9 : win3_4.index ⟨(i 0).val / 2000, ht⟩ (1 : Fin 2) = 0 := (idx_facts3 ⟨(i 0).val / 2000, ht⟩).2.2.2.2.2.2.2.2.2
  rw [mem_blk3]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e8]; omega
  | ⟨1, _⟩ =>
    show win3_4.index ⟨(i 0).val / 2000, ht⟩ (1 : Fin 2) * 64 ≤ (i 1).val
      ∧ (i 1).val < win3_4.index ⟨(i 0).val / 2000, ht⟩ (1 : Fin 2) * 64 + 64
    rw [e9]; omega

/-- The output array after the launch is the step's layer of the arrays the launch was entered with. -/
theorem arr3 : (dat3 V c).arrAt 4 cfg3.N
    = gconv (V c main_v58) (fun r => V c main_v11 (ix2 r 0)) (V c main_arg13) (fun q => V c main_v59 (ix2 0 q)) :=
  (dat3 V c).arrAt_eq_of_cover 4 _ (fun t _ => flushed3_eq V c t) (cover3)

/-! ## Launch 4 -/

/-- The index maps, decided over the grid: the row-block windows are at block t of their arrays at point t, the others at
    block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem blk4_0 (t : Fin cfg4.N) (y : S2000x64.Idx) (i : S100000x64.Idx)
    (h0 : (i 0).val = t.val * 2000 + (y 0).val) (h1 : (i 1).val = (y 1).val) :
    (iblk4 V c 0 t : Vec Ideal S2000x64 .f32) y = (V c main_v73 : S100000x64.Idx → EReal) i := by
  have e0 := (idx_facts4 t).1
  have e1 := (idx_facts4 t).2.1
  show V c main_v73 (((cfg4.win 0).blk t).view.emb y) = V c main_v73 i
  refine congrArg (V c main_v73) (funext fun a => Fin.ext ?_)
  match a with
  | ⟨0, _⟩ => show win4_0.index t (0 : Fin 2) * 2000 + 1 * (y 0).val = (i 0).val; omega
  | ⟨1, _⟩ => show win4_0.index t (1 : Fin 2) * 64 + 1 * (y 1).val = (i 1).val; omega

theorem blk4_1 (t : Fin cfg4.N) (y : S2000x1.Idx) (i : S100000x1.Idx)
    (h0 : (i 0).val = t.val * 2000 + (y 0).val) (h1 : (i 1).val = (y 1).val) :
    (iblk4 V c 1 t : Vec Ideal S2000x1 .f32) y = (V c main_v11 : S100000x1.Idx → EReal) i := by
  have e0 := (idx_facts4 t).2.2.1
  have e1 := (idx_facts4 t).2.2.2.1
  show V c main_v11 (((cfg4.win 1).blk t).view.emb y) = V c main_v11 i
  refine congrArg (V c main_v11) (funext fun a => Fin.ext ?_)
  match a with
  | ⟨0, _⟩ => show win4_1.index t (0 : Fin 2) * 2000 + 1 * (y 0).val = (i 0).val; omega
  | ⟨1, _⟩ => show win4_1.index t (1 : Fin 2) * 1 + 1 * (y 1).val = (i 1).val; omega

theorem blk4_2 (t : Fin cfg4.N) (y : S64x40.Idx) (i : S64x40.Idx)
    (h0 : (i 0).val = (y 0).val) (h1 : (i 1).val = (y 1).val) :
    (iblk4 V c 2 t : Vec Ideal S64x40 .f32) y = (V c main_arg15 : S64x40.Idx → EReal) i := by
  have e0 := (idx_facts4 t).2.2.2.2.1
  have e1 := (idx_facts4 t).2.2.2.2.2.1
  show V c main_arg15 (((cfg4.win 2).blk t).view.emb y) = V c main_arg15 i
  refine congrArg (V c main_arg15) (funext fun a => Fin.ext ?_)
  match a with
  | ⟨0, _⟩ => show win4_2.index t (0 : Fin 2) * 64 + 1 * (y 0).val = (i 0).val; omega
  | ⟨1, _⟩ => show win4_2.index t (1 : Fin 2) * 40 + 1 * (y 1).val = (i 1).val; omega

theorem blk4_3 (t : Fin cfg4.N) (y : S1x40.Idx) (i : S1x40.Idx)
    (h0 : (i 0).val = (y 0).val) (h1 : (i 1).val = (y 1).val) :
    (iblk4 V c 3 t : Vec Ideal S1x40 .f32) y = (V c main_v74 : S1x40.Idx → EReal) i := by
  have e0 := (idx_facts4 t).2.2.2.2.2.2.1
  have e1 := (idx_facts4 t).2.2.2.2.2.2.2.1
  show V c main_v74 (((cfg4.win 3).blk t).view.emb y) = V c main_v74 i
  refine congrArg (V c main_v74) (funext fun a => Fin.ext ?_)
  match a with
  | ⟨0, _⟩ => show win4_3.index t (0 : Fin 2) * 1 + 1 * (y 0).val = (i 0).val; omega
  | ⟨1, _⟩ => show win4_3.index t (1 : Fin 2) * 40 + 1 * (y 1).val = (i 1).val; omega

/-- What point t writes back is block t of the step's layer of the whole arrays. -/
theorem flushed4_eq (t : Fin cfg4.N) :
    (dat4 V c).flushed 4 t = ((cfg4.win 4).blk t).view.read (Elt Ideal)
      (gconv (V c main_v73) (fun r => V c main_v11 (ix2 r 0)) (V c main_arg15) (fun q => V c main_v74 (ix2 0 q))) := by
  show (cfg4.win 4).cut (grid4.coords t) ((dat4 V c).after 4 t) = _
  rw [after4_4]
  unfold out4_4
  rw [View.canon_unit_zero hz]
  simp only [View.ld_unit_zero (S := S2000x64) hz, View.ld_unit_zero (S := S2000x1) hz,
    View.ld_unit_zero (S := S64x40) hz, View.ld_unit_zero (S := S1x40) hz]
  rw [pay_gc4]
  have e8 := (idx_facts4 t).2.2.2.2.2.2.2.2.1
  have e9 := (idx_facts4 t).2.2.2.2.2.2.2.2.2
  funext j
  show gconv (iblk4 V c 0 t) (fun p => iblk4 V c 1 t (ix2 p 0)) (iblk4 V c 2 t) (fun q => iblk4 V c 3 t (ix2 0 q)) j
    = gconv (V c main_v73) (fun r => V c main_v11 (ix2 r 0)) (V c main_arg15) (fun q => V c main_v74 (ix2 0 q)) (((cfg4.win 4).blk t).view.emb j)
  refine gconv_block (n := 2000) (N := 100000) (k := 64) (c := 40) (iblk4 V c 0 t) (iblk4 V c 1 t) (iblk4 V c 2 t) (iblk4 V c 3 t)
    (V c main_v73) (V c main_v11) (V c main_arg15) (V c main_v74) (t.val * 2000) j (((cfg4.win 4).blk t).view.emb j) ?_ ?_
    (fun y i h0 h1 => blk4_0 V c t y i h0 h1) (fun y i h0 h1 => blk4_1 V c t y i h0 h1)
    (fun y => blk4_2 V c t y y rfl rfl) (fun y => blk4_3 V c t y y rfl rfl)
  · show win4_4.index t (0 : Fin 2) * 2000 + 1 * (j 0).val = t.val * 2000 + (j 0).val; omega
  · show win4_4.index t (1 : Fin 2) * 40 + 1 * (j 1).val = (j 1).val; omega

/-- An index of the output array is in point t's block iff each coordinate is in the block's range on its axis. -/
theorem mem_blk4 (t : Fin cfg4.N) (i : S100000x40.Idx) :
    i ∈ ((cfg4.win 4).blk t).view.set ↔ ∀ a : Fin 2, win4_4.index t a * S2000x40.size a ≤ (i a).val
      ∧ (i a).val < win4_4.index t a * S2000x40.size a + S2000x40.size a := by
  show i ∈ ((View.whole main_v75).slice (win4_4.rect t)).set ↔ _
  rw [View.set_slice_whole, Rect.mem_set_unit]
  exact Iff.rfl

/-- Row r of the output array is in the block of point r / 2000. -/
theorem cover4 (i : S100000x40.Idx) : ∃ t : Fin cfg4.N, (cfg4.win 4).flush t = true ∧ i ∈ ((cfg4.win 4).blk t).view.set := by
  have hN : cfg4.N = 50 := N_4
  have hi0 : (i 0).val < 100000 := (i 0).isLt
  have hi1 : (i 1).val < 40 := (i 1).isLt
  have ht : (i 0).val / 2000 < cfg4.N := by rw [hN]; omega
  refine ⟨⟨(i 0).val / 2000, ht⟩, flush4_4 _, ?_⟩
  have e8 : win4_4.index ⟨(i 0).val / 2000, ht⟩ (0 : Fin 2) = (i 0).val / 2000 := (idx_facts4 ⟨(i 0).val / 2000, ht⟩).2.2.2.2.2.2.2.2.1
  have e9 : win4_4.index ⟨(i 0).val / 2000, ht⟩ (1 : Fin 2) = 0 := (idx_facts4 ⟨(i 0).val / 2000, ht⟩).2.2.2.2.2.2.2.2.2
  rw [mem_blk4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e8]; omega
  | ⟨1, _⟩ =>
    show win4_4.index ⟨(i 0).val / 2000, ht⟩ (1 : Fin 2) * 40 ≤ (i 1).val
      ∧ (i 1).val < win4_4.index ⟨(i 0).val / 2000, ht⟩ (1 : Fin 2) * 40 + 40
    rw [e9]; omega

/-- The output array after the launch is the step's layer of the arrays the launch was entered with. -/
theorem arr4 : (dat4 V c).arrAt 4 cfg4.N
    = gconv (V c main_v73) (fun r => V c main_v11 (ix2 r 0)) (V c main_arg15) (fun q => V c main_v74 (ix2 0 q)) :=
  (dat4 V c).arrAt_eq_of_cover 4 _ (fun t _ => flushed4_eq V c t) (cover4)

/-! ## Launch 0 -/

/-- The index maps, decided over the grid: the feature and output windows are at block t of their arrays at point t, the
    weights and biases at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem blk0_0 (t : Fin cfg0.N) (y : S2000x512.Idx) (i : S100000x512.Idx)
    (h0 : (i 0).val = t.val * 2000 + (y 0).val) (h1 : (i 1).val = (y 1).val) :
    (iblk0 V c 0 t : Vec Ideal S2000x512 .f32) y = (V c main_arg0 : S100000x512.Idx → EReal) i := by
  have e0 := (idx_facts0 t).1
  have e1 := (idx_facts0 t).2.1
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 512 + 1 * (y 1).val = (i 1).val; omega

theorem blk0_1 (t : Fin cfg0.N) (y : S512x512.Idx) (i : S512x512.Idx)
    (h0 : (i 0).val = (y 0).val) (h1 : (i 1).val = (y 1).val) :
    (iblk0 V c 1 t : Vec Ideal S512x512 .f32) y = (V c main_arg3 : S512x512.Idx → EReal) i := by
  have e0 := (idx_facts0 t).2.2.1
  have e1 := (idx_facts0 t).2.2.2.1
  show V c main_arg3 (((cfg0.win 1).blk t).view.emb y) = V c main_arg3 i
  refine congrArg (V c main_arg3) (funext fun a => Fin.ext ?_)
  match a with
  | ⟨0, _⟩ => show win0_1.index t (0 : Fin 2) * 512 + 1 * (y 0).val = (i 0).val; omega
  | ⟨1, _⟩ => show win0_1.index t (1 : Fin 2) * 512 + 1 * (y 1).val = (i 1).val; omega

theorem blk0_2 (t : Fin cfg0.N) (y : S1x512.Idx) (i : S1x512.Idx)
    (h0 : (i 0).val = (y 0).val) (h1 : (i 1).val = (y 1).val) :
    (iblk0 V c 2 t : Vec Ideal S1x512 .f32) y = (V c main_v12 : S1x512.Idx → EReal) i := by
  have e0 := (idx_facts0 t).2.2.2.2.1
  have e1 := (idx_facts0 t).2.2.2.2.2.1
  show V c main_v12 (((cfg0.win 2).blk t).view.emb y) = V c main_v12 i
  refine congrArg (V c main_v12) (funext fun a => Fin.ext ?_)
  match a with
  | ⟨0, _⟩ => show win0_2.index t (0 : Fin 2) * 1 + 1 * (y 0).val = (i 0).val; omega
  | ⟨1, _⟩ => show win0_2.index t (1 : Fin 2) * 512 + 1 * (y 1).val = (i 1).val; omega

theorem blk0_3 (t : Fin cfg0.N) (y : S512x256.Idx) (i : S512x256.Idx)
    (h0 : (i 0).val = (y 0).val) (h1 : (i 1).val = (y 1).val) :
    (iblk0 V c 3 t : Vec Ideal S512x256 .f32) y = (V c main_arg5 : S512x256.Idx → EReal) i := by
  have e0 := (idx_facts0 t).2.2.2.2.2.2.1
  have e1 := (idx_facts0 t).2.2.2.2.2.2.2.1
  show V c main_arg5 (((cfg0.win 3).blk t).view.emb y) = V c main_arg5 i
  refine congrArg (V c main_arg5) (funext fun a => Fin.ext ?_)
  match a with
  | ⟨0, _⟩ => show win0_3.index t (0 : Fin 2) * 512 + 1 * (y 0).val = (i 0).val; omega
  | ⟨1, _⟩ => show win0_3.index t (1 : Fin 2) * 256 + 1 * (y 1).val = (i 1).val; omega

theorem blk0_4 (t : Fin cfg0.N) (y : S1x256.Idx) (i : S1x256.Idx)
    (h0 : (i 0).val = (y 0).val) (h1 : (i 1).val = (y 1).val) :
    (iblk0 V c 4 t : Vec Ideal S1x256 .f32) y = (V c main_v13 : S1x256.Idx → EReal) i := by
  have e0 := (idx_facts0 t).2.2.2.2.2.2.2.2.1
  have e1 := (idx_facts0 t).2.2.2.2.2.2.2.2.2.1
  show V c main_v13 (((cfg0.win 4).blk t).view.emb y) = V c main_v13 i
  refine congrArg (V c main_v13) (funext fun a => Fin.ext ?_)
  match a with
  | ⟨0, _⟩ => show win0_4.index t (0 : Fin 2) * 1 + 1 * (y 0).val = (i 0).val; omega
  | ⟨1, _⟩ => show win0_4.index t (1 : Fin 2) * 256 + 1 * (y 1).val = (i 1).val; omega

theorem blk0_5 (t : Fin cfg0.N) (y : S256x64.Idx) (i : S256x64.Idx)
    (h0 : (i 0).val = (y 0).val) (h1 : (i 1).val = (y 1).val) :
    (iblk0 V c 5 t : Vec Ideal S256x64 .f32) y = (V c main_arg7 : S256x64.Idx → EReal) i := by
  have e0 := (idx_facts0 t).2.2.2.2.2.2.2.2.2.2.1
  have e1 := (idx_facts0 t).2.2.2.2.2.2.2.2.2.2.2.1
  show V c main_arg7 (((cfg0.win 5).blk t).view.emb y) = V c main_arg7 i
  refine congrArg (V c main_arg7) (funext fun a => Fin.ext ?_)
  match a with
  | ⟨0, _⟩ => show win0_5.index t (0 : Fin 2) * 256 + 1 * (y 0).val = (i 0).val; omega
  | ⟨1, _⟩ => show win0_5.index t (1 : Fin 2) * 64 + 1 * (y 1).val = (i 1).val; omega

theorem blk0_6 (t : Fin cfg0.N) (y : S1x64.Idx) (i : S1x64.Idx)
    (h0 : (i 0).val = (y 0).val) (h1 : (i 1).val = (y 1).val) :
    (iblk0 V c 6 t : Vec Ideal S1x64 .f32) y = (V c main_v14 : S1x64.Idx → EReal) i := by
  have e0 := (idx_facts0 t).2.2.2.2.2.2.2.2.2.2.2.2.1
  have e1 := (idx_facts0 t).2.2.2.2.2.2.2.2.2.2.2.2.2.1
  show V c main_v14 (((cfg0.win 6).blk t).view.emb y) = V c main_v14 i
  refine congrArg (V c main_v14) (funext fun a => Fin.ext ?_)
  match a with
  | ⟨0, _⟩ => show win0_6.index t (0 : Fin 2) * 1 + 1 * (y 0).val = (i 0).val; omega
  | ⟨1, _⟩ => show win0_6.index t (1 : Fin 2) * 64 + 1 * (y 1).val = (i 1).val; omega

/-- What point t writes back is block t of the perceptron of the whole arrays. -/
theorem flushed0_eq (t : Fin cfg0.N) :
    (dat0 V c).flushed 7 t = ((cfg0.win 7).blk t).view.read (Elt Ideal)
      (mlp (V c main_arg0) (V c main_arg3) (fun q => V c main_v12 (ix2 0 q)) (V c main_arg5) (fun q => V c main_v13 (ix2 0 q))
        (V c main_arg7) (fun q => V c main_v14 (ix2 0 q))) := by
  show (cfg0.win 7).cut (grid0.coords t) ((dat0 V c).after 7 t) = _
  rw [after0_7]
  unfold out0_7
  rw [View.canon_unit_zero hz]
  simp only [View.ld_unit_zero (S := S2000x512) hz, View.ld_unit_zero (S := S512x512) hz, View.ld_unit_zero (S := S1x512) hz,
    View.ld_unit_zero (S := S512x256) hz, View.ld_unit_zero (S := S1x256) hz, View.ld_unit_zero (S := S256x64) hz,
    View.ld_unit_zero (S := S1x64) hz]
  rw [pay_mlp]
  have e14 := (idx_facts0 t).2.2.2.2.2.2.2.2.2.2.2.2.2.2.1
  have e15 := (idx_facts0 t).2.2.2.2.2.2.2.2.2.2.2.2.2.2.2
  funext j
  show mlp (iblk0 V c 0 t) (iblk0 V c 1 t) (fun q => iblk0 V c 2 t (ix2 0 q)) (iblk0 V c 3 t) (fun q => iblk0 V c 4 t (ix2 0 q))
      (iblk0 V c 5 t) (fun q => iblk0 V c 6 t (ix2 0 q)) j
    = mlp (V c main_arg0) (V c main_arg3) (fun q => V c main_v12 (ix2 0 q)) (V c main_arg5) (fun q => V c main_v13 (ix2 0 q))
        (V c main_arg7) (fun q => V c main_v14 (ix2 0 q)) (((cfg0.win 7).blk t).view.emb j)
  refine mlp_block (n := 2000) (N := 100000) (k1 := 512) (k2 := 512) (k3 := 256) (c := 64)
    (iblk0 V c 0 t) (iblk0 V c 1 t) (iblk0 V c 2 t) (iblk0 V c 3 t) (iblk0 V c 4 t) (iblk0 V c 5 t) (iblk0 V c 6 t)
    (V c main_arg0) (V c main_arg3) (V c main_v12) (V c main_arg5) (V c main_v13) (V c main_arg7) (V c main_v14)
    (t.val * 2000) j (((cfg0.win 7).blk t).view.emb j) ?_ ?_
    (fun y i h0 h1 => blk0_0 V c t y i h0 h1)
    (fun y => blk0_1 V c t y y rfl rfl) (fun y => blk0_2 V c t y y rfl rfl) (fun y => blk0_3 V c t y y rfl rfl)
    (fun y => blk0_4 V c t y y rfl rfl) (fun y => blk0_5 V c t y y rfl rfl) (fun y => blk0_6 V c t y y rfl rfl)
  · show win0_7.index t (0 : Fin 2) * 2000 + 1 * (j 0).val = t.val * 2000 + (j 0).val; omega
  · show win0_7.index t (1 : Fin 2) * 64 + 1 * (j 1).val = (j 1).val; omega

/-- An index of the output array is in point t's block iff each coordinate is in the block's range on its axis. -/
theorem mem_blk0 (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v15).slice (win0_7.rect t)).set ↔ _
  rw [View.set_slice_whole, Rect.mem_set_unit]
  exact Iff.rfl

/-- Row r of the output array is in the block of point r / 2000. -/
theorem cover0 (i : S100000x64.Idx) : ∃ t : Fin cfg0.N, (cfg0.win 7).flush t = true ∧ i ∈ ((cfg0.win 7).blk t).view.set := by
  have hN : cfg0.N = 50 := N_0
  have hi0 : (i 0).val < 100000 := (i 0).isLt
  have hi1 : (i 1).val < 64 := (i 1).isLt
  have ht : (i 0).val / 2000 < cfg0.N := by rw [hN]; omega
  refine ⟨⟨(i 0).val / 2000, ht⟩, flush0_7 _, ?_⟩
  have e14 : win0_7.index ⟨(i 0).val / 2000, ht⟩ (0 : Fin 2) = (i 0).val / 2000 := (idx_facts0 ⟨(i 0).val / 2000, ht⟩).2.2.2.2.2.2.2.2.2.2.2.2.2.2.1
  have e15 : win0_7.index ⟨(i 0).val / 2000, ht⟩ (1 : Fin 2) = 0 := (idx_facts0 ⟨(i 0).val / 2000, ht⟩).2.2.2.2.2.2.2.2.2.2.2.2.2.2.2
  rw [mem_blk0]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e14]; omega
  | ⟨1, _⟩ =>
    show win0_7.index ⟨(i 0).val / 2000, ht⟩ (1 : Fin 2) * 64 ≤ (i 1).val
      ∧ (i 1).val < win0_7.index ⟨(i 0).val / 2000, ht⟩ (1 : Fin 2) * 64 + 64
    rw [e15]; omega

/-- The output array after the launch is the perceptron of the arrays the launch was entered with. -/
theorem arr0 : (dat0 V c).arrAt 7 cfg0.N
    = mlp (V c main_arg0) (V c main_arg3) (fun q => V c main_v12 (ix2 0 q)) (V c main_arg5) (fun q => V c main_v13 (ix2 0 q))
        (V c main_arg7) (fun q => V c main_v14 (ix2 0 q)) :=
  (dat0 V c).arrAt_eq_of_cover 7 _ (fun t _ => flushed0_eq V c t) (cover0)

end Cert.KernelIdeal.GcnBlocks

end
-- ==== Proof.RefStages.lean ====
/-
  The reference's stages are the specification's layers.

  The reference computes three clipped dense layers of the node features and then four graph-convolution steps.
  Read at an entry (p, q), a dense stage is a contraction ∑ₖ A(p, k) · W(k, q), plus the bias b(q) repeated down the
  rows, clipped at zero: the specification's `dense`. A graph-convolution stage first multiplies entry (p, k) of
  the aggregated features by the normalisation of node p (a vector repeated along the columns) and then is a dense
  stage: the specification's `gconv`. The aggregated features themselves (a sum over the graph's edges) and the
  normalisation vector are left as they are: each statement says how a stage is built from them, whatever they are.
-/
import proofs.«131599_j32418413150598_1_alg».proof.Proof.Spec
import proofs.«131599_j32418413150598_1_alg».proof.Proof.Gen.ReferenceIdeal.Read

noncomputable section

namespace Cert.Gcn.Ref

open Cert.ReferenceIdeal Cert.ReferenceIdeal.Read Cert.Gcn Idealize.ShloMosaic Idealize.ShloMosaic.ValueIdx

/-- The reference's first layer: entry (p, q) is max(∑ₖ x(p, k) · W₁(k, q) + b₁(q), 0). -/
theorem ref_layer1 (x0 : (⟨S100000x512, .f32⟩ : BufTy).Contents (Elt Ideal)) (x3 : (⟨S512x512, .f32⟩ : BufTy).Contents (Elt Ideal)) (x4 : (⟨S512, .f32⟩ : BufTy).Contents (Elt Ideal)) :
    val_main_v15 (F := Ideal) x0 x3 x4 = dense (x0) x3 (fun q => x4 (ix1 q)) := by
  funext i
  obtain ⟨p, q, rfl⟩ : ∃ (p : Fin 100000) (q : Fin 512), i = ix2 p q := ⟨i 0, i 1, eq_ix2 i⟩
  have e1 : ∀ k : Fin 512, lidx_main_v11 (ix2 p q) k = ix2 p k := fun k => funext fun a => Fin.ext (by match a with | ⟨0, _⟩ => rfl | ⟨1, _⟩ => rfl)
  have e2 : ∀ k : Fin 512, ridx_main_v11 (ix2 p q) k = ix2 k q := fun k => funext fun a => Fin.ext (by match a with | ⟨0, _⟩ => rfl | ⟨1, _⟩ => rfl)
  have e3 : idx_main_v12 (idx_main_v13 (ix2 p q)) = ix1 q := funext fun a => Fin.ext (by match a with | ⟨0, _⟩ => rfl)
  have hsum : (∑ k : Fin 512, (x0) (lidx_main_v11 (ix2 p q) k) * x3 (ridx_main_v11 (ix2 p q) k))
      = ∑ k : Fin 512, (x0) (ix2 p k) * x3 (ix2 k q) :=
    Finset.sum_congr rfl fun k _ => by rw [e1 k, e2 k]
  rw [val_main_v15_apply, val_main_v14_apply, val_main_v11_apply, val_main_v13_apply, val_main_v12_apply,
    val_main_call2_v0_apply, val_main_call2_cst_apply, hsum, e3]
  rfl

/-- The reference's second layer, a dense layer of the first layer's result. -/
theorem ref_layer2 (x0 : (⟨S100000x512, .f32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) :
    val_main_v20 (F := Ideal) x0 x3 x4 x5 x6 = dense (val_main_v15 (F := Ideal) x0 x3 x4) x5 (fun q => x6 (ix1 q)) := by
  funext i
  obtain ⟨p, q, rfl⟩ : ∃ (p : Fin 100000) (q : Fin 256), i = ix2 p q := ⟨i 0, i 1, eq_ix2 i⟩
  have e1 : ∀ k : Fin 512, lidx_main_v16 (ix2 p q) k = ix2 p k := fun k => funext fun a => Fin.ext (by match a with | ⟨0, _⟩ => rfl | ⟨1, _⟩ => rfl)
  have e2 : ∀ k : Fin 512, ridx_main_v16 (ix2 p q) k = ix2 k q := fun k => funext fun a => Fin.ext (by match a with | ⟨0, _⟩ => rfl | ⟨1, _⟩ => rfl)
  have e3 : idx_main_v17 (idx_main_v18 (ix2 p q)) = ix1 q := funext fun a => Fin.ext (by match a with | ⟨0, _⟩ => rfl)
  have hsum : (∑ k : Fin 512, (val_main_v15 (F := Ideal) x0 x3 x4) (lidx_main_v16 (ix2 p q) k) * x5 (ridx_main_v16 (ix2 p q) k))
      = ∑ k : Fin 512, (val_main_v15 (F := Ideal) x0 x3 x4) (ix2 p k) * x5 (ix2 k q) :=
    Finset.sum_congr rfl fun k _ => by rw [e1 k, e2 k]
  rw [val_main_v20_apply, val_main_v19_apply, val_main_v16_apply, val_main_v18_apply, val_main_v17_apply,
    val_main_call3_v0_apply, val_main_call3_cst_apply, hsum, e3]
  -- from here on the layer's input is an arbitrary matrix: both sides are the same expression in it
  generalize val_main_v15 (F := Ideal) x0 x3 x4 = A
  rfl

/-- The reference's third layer, a dense layer of the second layer's result. -/
theorem ref_layer3 (x0 : (⟨S100000x512, .f32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) :
    val_main_v25 (F := Ideal) x0 x3 x4 x5 x6 x7 x8 = dense (val_main_v20 (F := Ideal) x0 x3 x4 x5 x6) x7 (fun q => x8 (ix1 q)) := by
  funext i
  obtain ⟨p, q, rfl⟩ : ∃ (p : Fin 100000) (q : Fin 64), i = ix2 p q := ⟨i 0, i 1, eq_ix2 i⟩
  have e1 : ∀ k : Fin 256, lidx_main_v21 (ix2 p q) k = ix2 p k := fun k => funext fun a => Fin.ext (by match a with | ⟨0, _⟩ => rfl | ⟨1, _⟩ => rfl)
  have e2 : ∀ k : Fin 256, ridx_main_v21 (ix2 p q) k = ix2 k q := fun k => funext fun a => Fin.ext (by match a with | ⟨0, _⟩ => rfl | ⟨1, _⟩ => rfl)
  have e3 : idx_main_v22 (idx_main_v23 (ix2 p q)) = ix1 q := funext fun a => Fin.ext (by match a with | ⟨0, _⟩ => rfl)
  have hsum : (∑ k : Fin 256, (val_main_v20 (F := Ideal) x0 x3 x4 x5 x6) (lidx_main_v21 (ix2 p q) k) * x7 (ridx_main_v21 (ix2 p q) k))
      = ∑ k : Fin 256, (val_main_v20 (F := Ideal) x0 x3 x4 x5 x6) (ix2 p k) * x7 (ix2 k q) :=
    Finset.sum_congr rfl fun k _ => by rw [e1 k, e2 k]
  rw [val_main_v25_apply, val_main_v24_apply, val_main_v21_apply, val_main_v23_apply, val_main_v22_apply,
    val_main_call4_v0_apply, val_main_call4_cst_apply, hsum, e3]
  -- from here on the layer's input is an arbitrary matrix: both sides are the same expression in it
  generalize val_main_v20 (F := Ideal) x0 x3 x4 x5 x6 = A
  rfl

/-- The reference's first three stages are the node features' perceptron. -/
theorem ref_mlp (x0 : (⟨S100000x512, .f32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) :
    val_main_v25 (F := Ideal) x0 x3 x4 x5 x6 x7 x8
      = mlp x0 x3 (fun q => x4 (ix1 q)) x5 (fun q => x6 (ix1 q)) x7 (fun q => x8 (ix1 q)) := by
  unfold mlp
  rw [ref_layer3, ref_layer2, ref_layer1]

/-- The first graph-convolution step of the reference: the aggregated features, each row scaled by the node's normalisation, through a dense layer. -/
theorem ref_gc1 (x0 : (⟨S100000x512, .f32⟩ : BufTy).Contents (Elt Ideal)) (x1 x2 : (⟨S1600000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v46 (F := Ideal) x0 x1 x2 x3 x4 x5 x6 x7 x8 x9 x10
      = gconv (val_main_v38 (F := Ideal) x0 x1 x2 x3 x4 x5 x6 x7 x8) (fun r => val_main_v10 (F := Ideal) x2 (ix1 r)) x9 (fun q => x10 (ix1 q)) := by
  funext i
  obtain ⟨p, q, rfl⟩ : ∃ (p : Fin 100000) (q : Fin 64), i = ix2 p q := ⟨i 0, i 1, eq_ix2 i⟩
  have e1 : ∀ k : Fin 64, lidx_main_v42 (ix2 p q) k = ix2 p k := fun k => funext fun a => Fin.ext (by match a with | ⟨0, _⟩ => rfl | ⟨1, _⟩ => rfl)
  have e2 : ∀ k : Fin 64, ridx_main_v42 (ix2 p q) k = ix2 k q := fun k => funext fun a => Fin.ext (by match a with | ⟨0, _⟩ => rfl | ⟨1, _⟩ => rfl)
  have e3 : idx_main_v43 (idx_main_v44 (ix2 p q)) = ix1 q := funext fun a => Fin.ext (by match a with | ⟨0, _⟩ => rfl)
  have e4 : ∀ k : Fin 64, idx_main_v39 (idx_main_v40 (ix2 p k)) = ix1 p := fun k => funext fun a => Fin.ext (by match a with | ⟨0, _⟩ => rfl)
  -- term k of the contraction: entry (p, k) of the aggregated features times the normalisation of node p, times W(k, q)
  have hsum : (∑ k : Fin 64, val_main_v41 (F := Ideal) x0 x1 x2 x3 x4 x5 x6 x7 x8 (lidx_main_v42 (ix2 p q) k) * x9 (ridx_main_v42 (ix2 p q) k))
      = ∑ k : Fin 64, FloatOps.mulf (F := Ideal) (φ := .f32) (val_main_v38 (F := Ideal) x0 x1 x2 x3 x4 x5 x6 x7 x8 (ix2 p k)) (val_main_v10 (F := Ideal) x2 (ix1 p)) * x9 (ix2 k q) :=
    Finset.sum_congr rfl fun k _ => by
      rw [e1 k, e2 k, val_main_v41_apply, val_main_v40_apply, val_main_v39_apply, e4 k]
  rw [val_main_v46_apply, val_main_v45_apply, val_main_v42_apply, val_main_v44_apply, val_main_v43_apply,
    val_main_call5_v0_apply, val_main_call5_cst_apply, hsum, e3]
  -- from here on the aggregated features and the normalisation are arbitrary: both sides are the same expression in them
  generalize val_main_v38 (F := Ideal) x0 x1 x2 x3 x4 x5 x6 x7 x8 = A
  generalize val_main_v10 (F := Ideal) x2 = s
  rfl

/-- The second graph-convolution step of the reference: the aggregated features, each row scaled by the node's normalisation, through a dense layer. -/
theorem ref_gc2 (x0 : (⟨S100000x512, .f32⟩ : BufTy).Contents (Elt Ideal)) (x1 x2 : (⟨S1600000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v67 (F := Ideal) x0 x1 x2 x3 x4 x5 x6 x7 x8 x9 x10 x11 x12
      = gconv (val_main_v59 (F := Ideal) x0 x1 x2 x3 x4 x5 x6 x7 x8 x9 x10) (fun r => val_main_v10 (F := Ideal) x2 (ix1 r)) x11 (fun q => x12 (ix1 q)) := by
  funext i
  obtain ⟨p, q, rfl⟩ : ∃ (p : Fin 100000) (q : Fin 64), i = ix2 p q := ⟨i 0, i 1, eq_ix2 i⟩
  have e1 : ∀ k : Fin 64, lidx_main_v63 (ix2 p q) k = ix2 p k := fun k => funext fun a => Fin.ext (by match a with | ⟨0, _⟩ => rfl | ⟨1, _⟩ => rfl)
  have e2 : ∀ k : Fin 64, ridx_main_v63 (ix2 p q) k = ix2 k q := fun k => funext fun a => Fin.ext (by match a with | ⟨0, _⟩ => rfl | ⟨1, _⟩ => rfl)
  have e3 : idx_main_v64 (idx_main_v65 (ix2 p q)) = ix1 q := funext fun a => Fin.ext (by match a with | ⟨0, _⟩ => rfl)
  have e4 : ∀ k : Fin 64, idx_main_v60 (idx_main_v61 (ix2 p k)) = ix1 p := fun k => funext fun a => Fin.ext (by match a with | ⟨0, _⟩ => rfl)
  -- term k of the contraction: entry (p, k) of the aggregated features times the normalisation of node p, times W(k, q)
  have hsum : (∑ k : Fin 64, val_main_v62 (F := Ideal) x0 x1 x2 x3 x4 x5 x6 x7 x8 x9 x10 (lidx_main_v63 (ix2 p q) k) * x11 (ridx_main_v63 (ix2 p q) k))
      = ∑ k : Fin 64, FloatOps.mulf (F := Ideal) (φ := .f32) (val_main_v59 (F := Ideal) x0 x1 x2 x3 x4 x5 x6 x7 x8 x9 x10 (ix2 p k)) (val_main_v10 (F := Ideal) x2 (ix1 p)) * x11 (ix2 k q) :=
    Finset.sum_congr rfl fun k _ => by
      rw [e1 k, e2 k, val_main_v62_apply, val_main_v61_apply, val_main_v60_apply, e4 k]
  rw [val_main_v67_apply, val_main_v66_apply, val_main_v63_apply, val_main_v65_apply, val_main_v64_apply,
    val_main_call6_v0_apply, val_main_call6_cst_apply, hsum, e3]
  -- from here on the aggregated features and the normalisation are arbitrary: both sides are the same expression in them
  generalize val_main_v59 (F := Ideal) x0 x1 x2 x3 x4 x5 x6 x7 x8 x9 x10 = A
  generalize val_main_v10 (F := Ideal) x2 = s
  rfl

/-- The third graph-convolution step of the reference: the aggregated features, each row scaled by the node's normalisation, through a dense layer. -/
theorem ref_gc3 (x0 : (⟨S100000x512, .f32⟩ : BufTy).Contents (Elt Ideal)) (x1 x2 : (⟨S1600000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v88 (F := Ideal) x0 x1 x2 x3 x4 x5 x6 x7 x8 x9 x10 x11 x12 x13 x14
      = gconv (val_main_v80 (F := Ideal) x0 x1 x2 x3 x4 x5 x6 x7 x8 x9 x10 x11 x12) (fun r => val_main_v10 (F := Ideal) x2 (ix1 r)) x13 (fun q => x14 (ix1 q)) := by
  funext i
  obtain ⟨p, q, rfl⟩ : ∃ (p : Fin 100000) (q : Fin 64), i = ix2 p q := ⟨i 0, i 1, eq_ix2 i⟩
  have e1 : ∀ k : Fin 64, lidx_main_v84 (ix2 p q) k = ix2 p k := fun k => funext fun a => Fin.ext (by match a with | ⟨0, _⟩ => rfl | ⟨1, _⟩ => rfl)
  have e2 : ∀ k : Fin 64, ridx_main_v84 (ix2 p q) k = ix2 k q := fun k => funext fun a => Fin.ext (by match a with | ⟨0, _⟩ => rfl | ⟨1, _⟩ => rfl)
  have e3 : idx_main_v85 (idx_main_v86 (ix2 p q)) = ix1 q := funext fun a => Fin.ext (by match a with | ⟨0, _⟩ => rfl)
  have e4 : ∀ k : Fin 64, idx_main_v81 (idx_main_v82 (ix2 p k)) = ix1 p := fun k => funext fun a => Fin.ext (by match a with | ⟨0, _⟩ => rfl)
  -- term k of the contraction: entry (p, k) of the aggregated features times the normalisation of node p, times W(k, q)
  have hsum : (∑ k : Fin 64, val_main_v83 (F := Ideal) x0 x1 x2 x3 x4 x5 x6 x7 x8 x9 x10 x11 x12 (lidx_main_v84 (ix2 p q) k) * x13 (ridx_main_v84 (ix2 p q) k))
      = ∑ k : Fin 64, FloatOps.mulf (F := Ideal) (φ := .f32) (val_main_v80 (F := Ideal) x0 x1 x2 x3 x4 x5 x6 x7 x8 x9 x10 x11 x12 (ix2 p k)) (val_main_v10 (F := Ideal) x2 (ix1 p)) * x13 (ix2 k q) :=
    Finset.sum_congr rfl fun k _ => by
      rw [e1 k, e2 k, val_main_v83_apply, val_main_v82_apply, val_main_v81_apply, e4 k]
  rw [val_main_v88_apply, val_main_v87_apply, val_main_v84_apply, val_main_v86_apply, val_main_v85_apply,
    val_main_call7_v0_apply, val_main_call7_cst_apply, hsum, e3]
  -- from here on the aggregated features and the normalisation are arbitrary: both sides are the same expression in them
  generalize val_main_v80 (F := Ideal) x0 x1 x2 x3 x4 x5 x6 x7 x8 x9 x10 x11 x12 = A
  generalize val_main_v10 (F := Ideal) x2 = s
  rfl

/-- The fourth graph-convolution step of the reference: the aggregated features, each row scaled by the node's normalisation, through a dense layer. Its result has 40 columns. -/
theorem ref_gc4 (x0 : (⟨S100000x512, .f32⟩ : BufTy).Contents (Elt Ideal)) (x1 x2 : (⟨S1600000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x40, .f32⟩ : BufTy).Contents (Elt Ideal)) (x16 : (⟨S40, .f32⟩ : BufTy).Contents (Elt Ideal)) :
    val_main_v109 (F := Ideal) x0 x1 x2 x3 x4 x5 x6 x7 x8 x9 x10 x11 x12 x13 x14 x15 x16
      = gconv (val_main_v101 (F := Ideal) x0 x1 x2 x3 x4 x5 x6 x7 x8 x9 x10 x11 x12 x13 x14) (fun r => val_main_v10 (F := Ideal) x2 (ix1 r)) x15 (fun q => x16 (ix1 q)) := by
  funext i
  obtain ⟨p, q, rfl⟩ : ∃ (p : Fin 100000) (q : Fin 40), i = ix2 p q := ⟨i 0, i 1, eq_ix2 i⟩
  have e1 : ∀ k : Fin 64, lidx_main_v105 (ix2 p q) k = ix2 p k := fun k => funext fun a => Fin.ext (by match a with | ⟨0, _⟩ => rfl | ⟨1, _⟩ => rfl)
  have e2 : ∀ k : Fin 64, ridx_main_v105 (ix2 p q) k = ix2 k q := fun k => funext fun a => Fin.ext (by match a with | ⟨0, _⟩ => rfl | ⟨1, _⟩ => rfl)
  have e3 : idx_main_v106 (idx_main_v107 (ix2 p q)) = ix1 q := funext fun a => Fin.ext (by match a with | ⟨0, _⟩ => rfl)
  have e4 : ∀ k : Fin 64, idx_main_v102 (idx_main_v103 (ix2 p k)) = ix1 p := fun k => funext fun a => Fin.ext (by match a with | ⟨0, _⟩ => rfl)
  -- term k of the contraction: entry (p, k) of the aggregated features times the normalisation of node p, times W(k, q)
  have hsum : (∑ k : Fin 64, val_main_v104 (F := Ideal) x0 x1 x2 x3 x4 x5 x6 x7 x8 x9 x10 x11 x12 x13 x14 (lidx_main_v105 (ix2 p q) k) * x15 (ridx_main_v105 (ix2 p q) k))
      = ∑ k : Fin 64, FloatOps.mulf (F := Ideal) (φ := .f32) (val_main_v101 (F := Ideal) x0 x1 x2 x3 x4 x5 x6 x7 x8 x9 x10 x11 x12 x13 x14 (ix2 p k)) (val_main_v10 (F := Ideal) x2 (ix1 p)) * x15 (ix2 k q) :=
    Finset.sum_congr rfl fun k _ => by
      rw [e1 k, e2 k, val_main_v104_apply, val_main_v103_apply, val_main_v102_apply, e4 k]
  rw [val_main_v109_apply, val_main_v108_apply, val_main_v105_apply, val_main_v107_apply, val_main_v106_apply,
    val_main_call8_v0_apply, val_main_call8_cst_apply, hsum, e3]
  -- from here on the aggregated features and the normalisation are arbitrary: both sides are the same expression in them
  generalize val_main_v101 (F := Ideal) x0 x1 x2 x3 x4 x5 x6 x7 x8 x9 x10 x11 x12 x13 x14 = A
  generalize val_main_v10 (F := Ideal) x2 = s
  rfl

end Cert.Gcn.Ref

end
-- ==== Proof.Bridge.lean ====
/-
  The two programs' host chains are one function.

  Between the launches the kernel program applies plain array operations — the degree count, its clip below at one,
  one over the square root; and before each graph-convolution step the scaling of the features by the sources'
  normalisation, the wrap of negative edge indices, the gather of rows at the sources and their scatter-add at the
  destinations.  The reference applies the same operations to the same operands, printed over its own copies of the
  shapes and dimension records.  The copies are equal term by term, so each chain of the one program is the chain of
  the other: both sides unfold to the same operations of the same operands.
-/
import proofs.«131599_j32418413150598_1_alg».proof.Proof.HostFns
import proofs.«131599_j32418413150598_1_alg».proof.Proof.Gen.ReferenceIdeal.Read

noncomputable section

namespace Cert.Gcn.Bridge

open Cert.KernelIdeal.GcnHost Cert.ReferenceIdeal.Read
open Idealize.ShloMosaic

/-- The normalisation of the sources, named over the kernel program's records, is the reference's chain of the same
    operations: the edge count scatter-added into zeros, clipped below at one, one over its square root. -/
theorem norm_src (x1 : (⟨ReferenceIdeal.S1600000, .i32⟩ : BufTy).Contents (Elt Ideal)) :
    normOf x1 = val_main_v8 (F := Ideal) x1 := by
  unfold normOf clipAt degOf val_main_v8 val_main_v7 val_main_call0_v1 val_main_call0_v0 val_main_cst_2 val_main_v3 val_main_v1
    val_main_cst_0 val_main_v2 val_main_v0 val_main_cst
  rfl

/-- The same for the destinations. -/
theorem norm_dst (x2 : (⟨ReferenceIdeal.S1600000, .i32⟩ : BufTy).Contents (Elt Ideal)) :
    normOf x2 = val_main_v10 (F := Ideal) x2 := by
  unfold normOf clipAt degOf val_main_v10 val_main_v9 val_main_call1_v1 val_main_call1_v0 val_main_cst_3 val_main_v6 val_main_v4
    val_main_cst_1 val_main_v5 val_main_v0 val_main_cst
  rfl

/-- The aggregation before this step, named over the kernel program's records, is the reference's chain of the same
    operations. -/
theorem agg1 (x0 : (⟨ReferenceIdeal.S100000x512, .f32⟩ : BufTy).Contents (Elt Ideal)) (x1 : (⟨ReferenceIdeal.S1600000, .i32⟩ : BufTy).Contents (Elt Ideal)) (x2 : (⟨ReferenceIdeal.S1600000, .i32⟩ : BufTy).Contents (Elt Ideal)) (x3 : (⟨ReferenceIdeal.S512x512, .f32⟩ : BufTy).Contents (Elt Ideal)) (x4 : (⟨ReferenceIdeal.S512, .f32⟩ : BufTy).Contents (Elt Ideal)) (x5 : (⟨ReferenceIdeal.S512x256, .f32⟩ : BufTy).Contents (Elt Ideal)) (x6 : (⟨ReferenceIdeal.S256, .f32⟩ : BufTy).Contents (Elt Ideal)) (x7 : (⟨ReferenceIdeal.S256x64, .f32⟩ : BufTy).Contents (Elt Ideal)) (x8 : (⟨ReferenceIdeal.S64, .f32⟩ : BufTy).Contents (Elt Ideal)) :
    aggOf (val_main_v25 (F := Ideal) x0 x3 x4 x5 x6 x7 x8) (val_main_v8 (F := Ideal) x1) x1 x2
      = val_main_v38 (F := Ideal) x0 x1 x2 x3 x4 x5 x6 x7 x8 := by
  unfold aggOf val_main_v38 val_main_v36 val_main_cst_5 val_main_v37 val_main_v35 val_main_v28 val_main_v27 val_main_v26 val_main_v34 val_main_v33 val_main_v30 val_main_v29 val_main_c val_main_v32 val_main_v31 val_main_c_4
  generalize val_main_v25 (F := Ideal) x0 x3 x4 x5 x6 x7 x8 = h
  generalize val_main_v8 (F := Ideal) x1 = ns
  rfl

/-- The aggregation before this step, named over the kernel program's records, is the reference's chain of the same
    operations. -/
theorem agg2 (x0 : (⟨ReferenceIdeal.S100000x512, .f32⟩ : BufTy).Contents (Elt Ideal)) (x1 : (⟨ReferenceIdeal.S1600000, .i32⟩ : BufTy).Contents (Elt Ideal)) (x2 : (⟨ReferenceIdeal.S1600000, .i32⟩ : BufTy).Contents (Elt Ideal)) (x3 : (⟨ReferenceIdeal.S512x512, .f32⟩ : BufTy).Contents (Elt Ideal)) (x4 : (⟨ReferenceIdeal.S512, .f32⟩ : BufTy).Contents (Elt Ideal)) (x5 : (⟨ReferenceIdeal.S512x256, .f32⟩ : BufTy).Contents (Elt Ideal)) (x6 : (⟨ReferenceIdeal.S256, .f32⟩ : BufTy).Contents (Elt Ideal)) (x7 : (⟨ReferenceIdeal.S256x64, .f32⟩ : BufTy).Contents (Elt Ideal)) (x8 : (⟨ReferenceIdeal.S64, .f32⟩ : BufTy).Contents (Elt Ideal)) (x9 : (⟨ReferenceIdeal.S64x64, .f32⟩ : BufTy).Contents (Elt Ideal)) (x10 : (⟨ReferenceIdeal.S64, .f32⟩ : BufTy).Contents (Elt Ideal)) :
    aggOf (val_main_v46 (F := Ideal) x0 x1 x2 x3 x4 x5 x6 x7 x8 x9 x10) (val_main_v8 (F := Ideal) x1) x1 x2
      = val_main_v59 (F := Ideal) x0 x1 x2 x3 x4 x5 x6 x7 x8 x9 x10 := by
  unfold aggOf val_main_v59 val_main_v57 val_main_cst_8 val_main_v58 val_main_v56 val_main_v49 val_main_v48 val_main_v47 val_main_v55 val_main_v54 val_main_v51 val_main_v50 val_main_c_6 val_main_v53 val_main_v52 val_main_c_7
  generalize val_main_v46 (F := Ideal) x0 x1 x2 x3 x4 x5 x6 x7 x8 x9 x10 = h
  generalize val_main_v8 (F := Ideal) x1 = ns
  rfl

/-- The aggregation before this step, named over the kernel program's records, is the reference's chain of the same
    operations. -/
theorem agg3 (x0 : (⟨ReferenceIdeal.S100000x512, .f32⟩ : BufTy).Contents (Elt Ideal)) (x1 : (⟨ReferenceIdeal.S1600000, .i32⟩ : BufTy).Contents (Elt Ideal)) (x2 : (⟨ReferenceIdeal.S1600000, .i32⟩ : BufTy).Contents (Elt Ideal)) (x3 : (⟨ReferenceIdeal.S512x512, .f32⟩ : BufTy).Contents (Elt Ideal)) (x4 : (⟨ReferenceIdeal.S512, .f32⟩ : BufTy).Contents (Elt Ideal)) (x5 : (⟨ReferenceIdeal.S512x256, .f32⟩ : BufTy).Contents (Elt Ideal)) (x6 : (⟨ReferenceIdeal.S256, .f32⟩ : BufTy).Contents (Elt Ideal)) (x7 : (⟨ReferenceIdeal.S256x64, .f32⟩ : BufTy).Contents (Elt Ideal)) (x8 : (⟨ReferenceIdeal.S64, .f32⟩ : BufTy).Contents (Elt Ideal)) (x9 : (⟨ReferenceIdeal.S64x64, .f32⟩ : BufTy).Contents (Elt Ideal)) (x10 : (⟨ReferenceIdeal.S64, .f32⟩ : BufTy).Contents (Elt Ideal)) (x11 : (⟨ReferenceIdeal.S64x64, .f32⟩ : BufTy).Contents (Elt Ideal)) (x12 : (⟨ReferenceIdeal.S64, .f32⟩ : BufTy).Contents (Elt Ideal)) :
    aggOf (val_main_v67 (F := Ideal) x0 x1 x2 x3 x4 x5 x6 x7 x8 x9 x10 x11 x12) (val_main_v8 (F := Ideal) x1) x1 x2
      = val_main_v80 (F := Ideal) x0 x1 x2 x3 x4 x5 x6 x7 x8 x9 x10 x11 x12 := by
  unfold aggOf val_main_v80 val_main_v78 val_main_cst_11 val_main_v79 val_main_v77 val_main_v70 val_main_v69 val_main_v68 val_main_v76 val_main_v75 val_main_v72 val_main_v71 val_main_c_9 val_main_v74 val_main_v73 val_main_c_10
  generalize val_main_v67 (F := Ideal) x0 x1 x2 x3 x4 x5 x6 x7 x8 x9 x10 x11 x12 = h
  generalize val_main_v8 (F := Ideal) x1 = ns
  rfl

/-- The aggregation before this step, named over the kernel program's records, is the reference's chain of the same
    operations. -/
theorem agg4 (x0 : (⟨ReferenceIdeal.S100000x512, .f32⟩ : BufTy).Contents (Elt Ideal)) (x1 : (⟨ReferenceIdeal.S1600000, .i32⟩ : BufTy).Contents (Elt Ideal)) (x2 : (⟨ReferenceIdeal.S1600000, .i32⟩ : BufTy).Contents (Elt Ideal)) (x3 : (⟨ReferenceIdeal.S512x512, .f32⟩ : BufTy).Contents (Elt Ideal)) (x4 : (⟨ReferenceIdeal.S512, .f32⟩ : BufTy).Contents (Elt Ideal)) (x5 : (⟨ReferenceIdeal.S512x256, .f32⟩ : BufTy).Contents (Elt Ideal)) (x6 : (⟨ReferenceIdeal.S256, .f32⟩ : BufTy).Contents (Elt Ideal)) (x7 : (⟨ReferenceIdeal.S256x64, .f32⟩ : BufTy).Contents (Elt Ideal)) (x8 : (⟨ReferenceIdeal.S64, .f32⟩ : BufTy).Contents (Elt Ideal)) (x9 : (⟨ReferenceIdeal.S64x64, .f32⟩ : BufTy).Contents (Elt Ideal)) (x10 : (⟨ReferenceIdeal.S64, .f32⟩ : BufTy).Contents (Elt Ideal)) (x11 : (⟨ReferenceIdeal.S64x64, .f32⟩ : BufTy).Contents (Elt Ideal)) (x12 : (⟨ReferenceIdeal.S64, .f32⟩ : BufTy).Contents (Elt Ideal)) (x13 : (⟨ReferenceIdeal.S64x64, .f32⟩ : BufTy).Contents (Elt Ideal)) (x14 : (⟨ReferenceIdeal.S64, .f32⟩ : BufTy).Contents (Elt Ideal)) :
    aggOf (val_main_v88 (F := Ideal) x0 x1 x2 x3 x4 x5 x6 x7 x8 x9 x10 x11 x12 x13 x14) (val_main_v8 (F := Ideal) x1) x1 x2
      = val_main_v101 (F := Ideal) x0 x1 x2 x3 x4 x5 x6 x7 x8 x9 x10 x11 x12 x13 x14 := by
  unfold aggOf val_main_v101 val_main_v99 val_main_cst_14 val_main_v100 val_main_v98 val_main_v91 val_main_v90 val_main_v89 val_main_v97 val_main_v96 val_main_v93 val_main_v92 val_main_c_12 val_main_v95 val_main_v94 val_main_c_13
  generalize val_main_v88 (F := Ideal) x0 x1 x2 x3 x4 x5 x6 x7 x8 x9 x10 x11 x12 x13 x14 = h
  generalize val_main_v8 (F := Ideal) x1 = ns
  rfl

end Cert.Gcn.Bridge

end
-- ==== Proof.LibColumnCast.lean ====
/-
  A vector cast to a column.  A length-a array reshaped to [a, 1] reads, at (i, u), the array at i, whatever the
  unit coordinate u: row-major order numbers both (i, u) and i by i.
-/
import Idealize.ShloMosaic.Lib.Pipeline.Value
import Idealize.ShloMosaic.Lib.ValueIdx

noncomputable section

namespace Cert.LibColumnCast

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast

end
-- ==== Proof.KVal.lean ====
/-
  The idealized kernel's result is the reference's, as one function of the arguments.

  Stage by stage along the program: the first launch leaves the three-layer perceptron of the node features (its
  blocks of 2000 rows are the layers' own rows); each aggregation is the same host chain in both programs; each
  later launch leaves one graph-convolution step of its aggregated input, the destination normalisation read
  through a column cast and the bias through a row cast.  Each stage is stated as the reference's stage at the
  launch arguments, so the last one is the claim.
-/
import proofs.«131599_j32418413150598_1_alg».proof.Proof.Walk
import proofs.«131599_j32418413150598_1_alg».proof.Proof.Blocks
import proofs.«131599_j32418413150598_1_alg».proof.Proof.RefStages
import proofs.«131599_j32418413150598_1_alg».proof.Proof.Bridge
import proofs.«131599_j32418413150598_1_alg».proof.Proof.LibColumnCast
import Idealize.ShloMosaic.Lib.ValueLayout

set_option maxRecDepth 16384

noncomputable section

namespace Cert.KernelIdeal.GcnVal

open Cert.KernelIdeal Cert.KernelIdeal.Gen Cert.KernelIdeal.GcnHost Cert.KernelIdeal.GcnWalk Cert.KernelIdeal.GcnBlocks
open Cert.Gcn Cert.Gcn.Ref Cert.Gcn.Bridge Cert.LibColumnCast
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Casts read at an index -/

/-- The destination normalisation, cast to a column, read at row r. -/
theorem col_at (n : F32 S100000) (r : Fin 100000) :
    shapeCast S100000x1 n shapeCasts_S100000_S100000x1 (ix2 r (0 : Fin 1)) = n (ix1 r) :=
  shapeCast_a_a1_apply n shapeCasts_S100000_S100000x1 r 0
theorem row512_at (b : F32 S512) (q : Fin 512) : shapeCast S1x512 b shapeCasts_S512_S1x512 (ix2 (0 : Fin 1) q) = b (ix1 q) :=
  shapeCast_a_1a_apply b shapeCasts_S512_S1x512 0 q
theorem row256_at (b : F32 S256) (q : Fin 256) : shapeCast S1x256 b shapeCasts_S256_S1x256 (ix2 (0 : Fin 1) q) = b (ix1 q) :=
  shapeCast_a_1a_apply b shapeCasts_S256_S1x256 0 q
theorem row64_at (b : F32 S64) (q : Fin 64) : shapeCast S1x64 b shapeCasts_S64_S1x64 (ix2 (0 : Fin 1) q) = b (ix1 q) :=
  shapeCast_a_1a_apply b shapeCasts_S64_S1x64 0 q
theorem row40_at (b : F32 S40) (q : Fin 40) : shapeCast S1x40 b shapeCasts_S40_S1x40 (ix2 (0 : Fin 1) q) = b (ix1 q) :=
  shapeCast_a_1a_apply b shapeCasts_S40_S1x40 0 q

/-! ## The perceptron: the first launch -/

theorem h0_eq : W6 m ρ c (Proc.devRef .tc main_v15) = Cert.ReferenceIdeal.Read.val_main_v25 (F := Ideal) (argv m c main_arg0) (argv m c main_arg3) (argv m c main_arg4) (argv m c main_arg5) (argv m c main_arg6) (argv m c main_arg7) (argv m c main_arg8) := by
  refine (W6_arr m ρ c 7).trans ((arr0 (V5 m ρ) c).trans ?_)
  rw [ref_mlp]
  have e0 := arg0_at5 m ρ c
  have e3 := arg3_at5 m ρ c
  have e5 := arg5_at5 m ρ c
  have e7 := arg7_at5 m ρ c
  have e12 : ∀ q : Fin 512, W5 m ρ c (Proc.devRef .tc main_v12) (ix2 (0 : Fin 1) q) = argv m c main_arg4 (ix1 q) :=
    fun q => (congrFun (v12_at5 m ρ c) _).trans (row512_at _ q)
  have e13 : ∀ q : Fin 256, W5 m ρ c (Proc.devRef .tc main_v13) (ix2 (0 : Fin 1) q) = argv m c main_arg6 (ix1 q) :=
    fun q => (congrFun (v13_at5 m ρ c) _).trans (row256_at _ q)
  have e14 : ∀ q : Fin 64, W5 m ρ c (Proc.devRef .tc main_v14) (ix2 (0 : Fin 1) q) = argv m c main_arg8 (ix1 q) :=
    fun q => (congrFun (v14_at5 m ρ c) _).trans (row64_at _ q)
  show mlp (W5 m ρ c (Proc.devRef .tc main_arg0)) (W5 m ρ c (Proc.devRef .tc main_arg3))
      (fun q => W5 m ρ c (Proc.devRef .tc main_v12) (ix2 0 q)) (W5 m ρ c (Proc.devRef .tc main_arg5))
      (fun q => W5 m ρ c (Proc.devRef .tc main_v13) (ix2 0 q)) (W5 m ρ c (Proc.devRef .tc main_arg7))
      (fun q => W5 m ρ c (Proc.devRef .tc main_v14) (ix2 0 q)) = _
  generalize W5 m ρ c = X at e0 e3 e5 e7 e12 e13 e14 ⊢
  rw [e0, e3, e5, e7, funext e12, funext e13, funext e14]

/-! ## The first graph-convolution step -/

theorem g1_eq : W7 m ρ c (Proc.devRef .tc main_v28) = Cert.ReferenceIdeal.Read.val_main_v38 (F := Ideal) (argv m c main_arg0) (argv m c main_arg1) (argv m c main_arg2) (argv m c main_arg3) (argv m c main_arg4) (argv m c main_arg5) (argv m c main_arg6) (argv m c main_arg7) (argv m c main_arg8) :=
  (v28_at7 m ρ c).trans ((congrArg₂ (fun h ns => aggOf h ns (argv m c main_arg1) (argv m c main_arg2))
    (h0_eq m ρ c) (norm_src (argv m c main_arg1))).trans (agg1 (argv m c main_arg0) (argv m c main_arg1) (argv m c main_arg2) (argv m c main_arg3) (argv m c main_arg4) (argv m c main_arg5) (argv m c main_arg6) (argv m c main_arg7) (argv m c main_arg8)))

theorem h1_eq : W8 m ρ c (Proc.devRef .tc main_v30) = Cert.ReferenceIdeal.Read.val_main_v46 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) := by
  refine (W8_arr m ρ c 4).trans ((arr1 (V7 m ρ) c).trans ?_)
  rw [ref_gc1]
  have eA := g1_eq m ρ c
  have eW := arg9_at7 m ρ c
  have en : ∀ r : Fin 100000, W7 m ρ c (Proc.devRef .tc main_v11) (ix2 r (0 : Fin 1)) = Cert.ReferenceIdeal.Read.val_main_v10 (F := Ideal) (argv m c main_arg2) (ix1 r) :=
    fun r => (congrFun (v11_at7 m ρ c) _).trans ((col_at _ r).trans (congrFun (norm_dst (argv m c main_arg2)) _))
  have eb : ∀ q : Fin 64, W7 m ρ c (Proc.devRef .tc main_v29) (ix2 (0 : Fin 1) q) = argv m c main_arg10 (ix1 q) :=
    fun q => (congrFun (v29_at7 m ρ c) _).trans (row64_at _ q)
  show gconv (W7 m ρ c (Proc.devRef .tc main_v28)) (fun r => W7 m ρ c (Proc.devRef .tc main_v11) (ix2 r 0))
      (W7 m ρ c (Proc.devRef .tc main_arg9)) (fun q => W7 m ρ c (Proc.devRef .tc main_v29) (ix2 0 q)) = _
  generalize W7 m ρ c = X at eA eW en eb ⊢
  rw [eA, eW, funext en, funext eb]

/-! ## The second graph-convolution step -/

theorem g2_eq : W9 m ρ c (Proc.devRef .tc main_v43) = Cert.ReferenceIdeal.Read.val_main_v59 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) :=
  (v43_at9 m ρ c).trans ((congrArg₂ (fun h ns => aggOf h ns (argv m c main_arg1) (argv m c main_arg2))
    (h1_eq m ρ c) (norm_src (argv m c main_arg1))).trans (agg2 (argv m c main_arg0) (argv m c main_arg1) (argv m c main_arg2) (argv m c main_arg3) (argv m c main_arg4) (argv m c main_arg5) (argv m c main_arg6) (argv m c main_arg7) (argv m c main_arg8) (argv m c main_arg9) (argv m c main_arg10)))

theorem h2_eq : W10 m ρ c (Proc.devRef .tc main_v45) = Cert.ReferenceIdeal.Read.val_main_v67 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) := by
  refine (W10_arr m ρ c 4).trans ((arr2 (V9 m ρ) c).trans ?_)
  rw [ref_gc2]
  have eA := g2_eq m ρ c
  have eW := arg11_at9 m ρ c
  have en : ∀ r : Fin 100000, W9 m ρ c (Proc.devRef .tc main_v11) (ix2 r (0 : Fin 1)) = Cert.ReferenceIdeal.Read.val_main_v10 (F := Ideal) (argv m c main_arg2) (ix1 r) :=
    fun r => (congrFun (v11_at9 m ρ c) _).trans ((col_at _ r).trans (congrFun (norm_dst (argv m c main_arg2)) _))
  have eb : ∀ q : Fin 64, W9 m ρ c (Proc.devRef .tc main_v44) (ix2 (0 : Fin 1) q) = argv m c main_arg12 (ix1 q) :=
    fun q => (congrFun (v44_at9 m ρ c) _).trans (row64_at _ q)
  show gconv (W9 m ρ c (Proc.devRef .tc main_v43)) (fun r => W9 m ρ c (Proc.devRef .tc main_v11) (ix2 r 0))
      (W9 m ρ c (Proc.devRef .tc main_arg11)) (fun q => W9 m ρ c (Proc.devRef .tc main_v44) (ix2 0 q)) = _
  generalize W9 m ρ c = X at eA eW en eb ⊢
  rw [eA, eW, funext en, funext eb]

/-! ## The third graph-convolution step -/

theorem g3_eq : W11 m ρ c (Proc.devRef .tc main_v58) = Cert.ReferenceIdeal.Read.val_main_v80 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) :=
  (v58_at11 m ρ c).trans ((congrArg₂ (fun h ns => aggOf h ns (argv m c main_arg1) (argv m c main_arg2))
    (h2_eq m ρ c) (norm_src (argv m c main_arg1))).trans (agg3 (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12)))

theorem h3_eq : W12 m ρ c (Proc.devRef .tc main_v60) = Cert.ReferenceIdeal.Read.val_main_v88 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) (argv m c main_arg13) (argv m c main_arg14) := by
  refine (W12_arr m ρ c 4).trans ((arr3 (V11 m ρ) c).trans ?_)
  rw [ref_gc3]
  have eA := g3_eq m ρ c
  have eW := arg13_at11 m ρ c
  have en : ∀ r : Fin 100000, W11 m ρ c (Proc.devRef .tc main_v11) (ix2 r (0 : Fin 1)) = Cert.ReferenceIdeal.Read.val_main_v10 (F := Ideal) (argv m c main_arg2) (ix1 r) :=
    fun r => (congrFun (v11_at11 m ρ c) _).trans ((col_at _ r).trans (congrFun (norm_dst (argv m c main_arg2)) _))
  have eb : ∀ q : Fin 64, W11 m ρ c (Proc.devRef .tc main_v59) (ix2 (0 : Fin 1) q) = argv m c main_arg14 (ix1 q) :=
    fun q => (congrFun (v59_at11 m ρ c) _).trans (row64_at _ q)
  show gconv (W11 m ρ c (Proc.devRef .tc main_v58)) (fun r => W11 m ρ c (Proc.devRef .tc main_v11) (ix2 r 0))
      (W11 m ρ c (Proc.devRef .tc main_arg13)) (fun q => W11 m ρ c (Proc.devRef .tc main_v59) (ix2 0 q)) = _
  generalize W11 m ρ c = X at eA eW en eb ⊢
  rw [eA, eW, funext en, funext eb]

/-! ## The fourth graph-convolution step: the result -/

theorem g4_eq : W13 m ρ c (Proc.devRef .tc main_v73) = Cert.ReferenceIdeal.Read.val_main_v101 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) (argv m c main_arg13) (argv m c main_arg14) :=
  (v73_at13 m ρ c).trans ((congrArg₂ (fun h ns => aggOf h ns (argv m c main_arg1) (argv m c main_arg2))
    (h3_eq m ρ c) (norm_src (argv m c main_arg1))).trans (agg4 (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) (argv m c main_arg13) (argv m c main_arg14)))

/-- The kernel's result buffer ends at the reference's result as a function of the launch arguments. -/
theorem out_eq : W14 m ρ c (Proc.devRef .tc main_v75) = Cert.ReferenceIdeal.Read.val_main_v109 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) := by
  refine (W14_arr m ρ c 4).trans ((arr4 (V13 m ρ) c).trans ?_)
  show _ = Cert.ReferenceIdeal.Read.val_main_v109 (F := Ideal) (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) (argv m c main_arg13) (argv m c main_arg14) (argv m c main_arg15) (argv m c main_arg16)
  rw [ref_gc4]
  have eA := g4_eq m ρ c
  have eW := arg15_at13 m ρ c
  have en : ∀ r : Fin 100000, W13 m ρ c (Proc.devRef .tc main_v11) (ix2 r (0 : Fin 1)) = Cert.ReferenceIdeal.Read.val_main_v10 (F := Ideal) (argv m c main_arg2) (ix1 r) :=
    fun r => (congrFun (v11_at13 m ρ c) _).trans ((col_at _ r).trans (congrFun (norm_dst (argv m c main_arg2)) _))
  have eb : ∀ q : Fin 40, W13 m ρ c (Proc.devRef .tc main_v74) (ix2 (0 : Fin 1) q) = argv m c main_arg16 (ix1 q) :=
    fun q => (congrFun (v74_at13 m ρ c) _).trans (row40_at _ q)
  show gconv (W13 m ρ c (Proc.devRef .tc main_v73)) (fun r => W13 m ρ c (Proc.devRef .tc main_v11) (ix2 r 0))
      (W13 m ρ c (Proc.devRef .tc main_arg15)) (fun q => W13 m ρ c (Proc.devRef .tc main_v74) (ix2 0 q)) = _
  generalize W13 m ρ c = X at eA eW en eb ⊢
  rw [eA, eW, funext en, funext eb]

end Cert.KernelIdeal.GcnVal

end
-- ==== Proof.lean ====
/-
  The certificate's claims, assembled.

  Both programs compute a graph network on 100000 nodes and 1600000 edges. The node features first pass through
  three dense layers, each max(x · W + b, 0). Four graph-convolution steps follow, each
  max(D_dst^(-1/2) · A · D_src^(-1/2) · H · W + b, 0): row r of H is scaled by the inverse square root of node r's
  out-degree (at least one), the scaled rows are summed along the edges into their destination nodes (the product
  with the adjacency matrix A, computed as a gather of the source rows and a sum into the destination rows), row r
  of the sum is scaled by the inverse square root of node r's in-degree (at least one), and a dense layer with its
  clip at zero ends the step. Both programs do the degree counts and the sums along the edges by the same host
  operations. The kernel does the dense parts in five launches over blocks of 2000 rows — one for the three
  layers, one for each step's scaling, product, bias and clip — and the reference does them as whole-array host
  operations. A block of rows of a dense layer depends on that block of rows of its input only, so the blocks put
  side by side are the whole-array layer; layer by layer and step by step the two results are one function of the
  arguments, as extended reals.

  The three frames are the generated runs. The kernel's idealization rewrote no operation, so what it preserves
  is nothing to show. The value claim takes the kernel's run with its result array named, the reference's run
  with its result named, and the equality of the two names on arguments that agree.
-/
import proofs.«131599_j32418413150598_1_alg».proof.Defs
import proofs.«131599_j32418413150598_1_alg».proof.Proof.Gen.Kernel
import proofs.«131599_j32418413150598_1_alg».proof.Proof.Gen.KernelIdeal
import proofs.«131599_j32418413150598_1_alg».proof.Proof.Gen.ReferenceIdeal
import proofs.«131599_j32418413150598_1_alg».proof.Proof.Gen.Pre_finite_inputs
import proofs.«131599_j32418413150598_1_alg».proof.Proof.Gen.Kernel.Frame
import proofs.«131599_j32418413150598_1_alg».proof.Proof.Gen.KernelIdeal.Frame
import proofs.«131599_j32418413150598_1_alg».proof.Proof.Gen.ReferenceIdeal.Run
import proofs.«131599_j32418413150598_1_alg».proof.Proof.Gen.ReferenceIdeal.Read
import proofs.«131599_j32418413150598_1_alg».proof.Proof.KRun
import proofs.«131599_j32418413150598_1_alg».proof.Proof.KVal

noncomputable section

namespace Cert.Proof

open Idealize.ShloMosaic Idealize.ShloMosaic.TcCoe Idealize.SL.Sem

/-- The kernel as printed runs, and its argument arrays end unchanged. -/
theorem kernel_frame : Cert.frame_Kernel := fun m ρ _ => Cert.Kernel.Gen.frame m ρ

/-- The idealized kernel runs, and its argument arrays end unchanged. -/
theorem kernelIdeal_frame : Cert.frame_KernelIdeal := fun m ρ _ => Cert.KernelIdeal.Gen.frame m ρ

/-- The idealized reference runs, and its argument arrays end unchanged. -/
theorem reference_frame : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On arguments that agree, the kernel's result array and the reference's end equal: the kernel's is the
    reference's last stage read at the kernel's arguments, and the reference's is that stage at its own. -/
theorem algebraic : Cert.algebraic_KernelIdeal_ReferenceIdeal := by
  intro m ρ m' ρ' _ hagree
  refine ⟨fun c => Cert.KernelIdeal.Gen.W14 m ρ c (Proc.devRef .tc Cert.KernelIdeal.main_v75),
    Cert.KernelIdeal.GcnRun.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1,
    (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
  exact (Cert.KernelIdeal.GcnVal.out_eq m ρ c).symm

theorem claim : Cert.Claim :=
  ⟨Cert.Kernel.Gen.facts, Cert.KernelIdeal.Gen.facts, Cert.ReferenceIdeal.Gen.facts, Cert.Pre_finite_inputs.Gen.facts,
    kernel_frame, kernelIdeal_frame, reference_frame, preserves, algebraic⟩

end Cert.Proof

end
